-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : IVec S50000 32) (main_arg3 : FVec F S800000 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S2000x128 : Shape := ⟨2, ![2000, 128]⟩
abbrev S800000x128 : Shape := ⟨2, ![800000, 128]⟩
abbrev S1x128 : Shape := ⟨2, ![1, 128]⟩
abbrev S256x128 : Shape := ⟨2, ![256, 128]⟩
abbrev S50000x1 : Shape := ⟨2, ![50000, 1]⟩

abbrev nBuf : Space → Nat
  | .hbm => 104
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x1, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S800000x1, .f32⟩
  | .hbm, ⟨75, _⟩ => ⟨S800000x128, .f32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S800000x1, .f32⟩
  | .hbm, ⟨93, _⟩ => ⟨S800000x128, .f32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S256x128, .f32⟩
  | .hbm, ⟨102, _⟩ => ⟨S50000x1, .i32⟩
  | .hbm, ⟨103, _⟩ => ⟨S256x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S256x128 : S_.BroadcastsInDim S256x128 (![] : Fin 0 → Fin S256x128.rank)
  bcast_S50000_S50000x1_0 : S50000.BroadcastsInDim S50000x1 (![0] : Fin 1 → Fin S50000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S256x128_S50000x1_S50000x128_1_0_0_1_wf : ScatterDims.WF S256x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v56) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v70) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S256x128 : Shape := ⟨2, ![256, 128]⟩
abbrev S50000x1 : Shape := ⟨2, ![50000, 1]⟩

abbrev nBuf : Space → Nat
  | .hbm => 180
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S800000, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S50000, .f32⟩
  | 22 => ⟨S_, .f32⟩
  | 23 => ⟨S_, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S_, .f32⟩
  | 70 => ⟨S50000, .f32⟩
  | 71 => ⟨S800000x1, .i32⟩
  | 72 => ⟨S50000, .f32⟩
  | 73 => ⟨S_, .f32⟩
  | 74 => ⟨S50000, .f32⟩
  | 75 => ⟨S50000, .i1⟩
  | 76 => ⟨S50000, .f32⟩
  | 77 => ⟨S_, .f32⟩
  | 78 => ⟨S_, .f32⟩
  | 79 => ⟨S50000, .f32⟩
  | 80 => ⟨S50000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S800000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S800000, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S800000x1, .f32⟩
  | 112 => ⟨S800000x128, .f32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .f32⟩
  | 125 => ⟨S50000, .f32⟩
  | 126 => ⟨S800000x1, .i32⟩
  | 127 => ⟨S50000, .f32⟩
  | _ => ⟨S50000x128, .f32⟩

abbrev hbmTy0_1 (i : Nat) : BufTy := match i % 128 with
  | 0 => ⟨S_, .f32⟩
  | 1 => ⟨S50000, .f32⟩
  | 2 => ⟨S50000, .i1⟩
  | 3 => ⟨S50000, .f32⟩
  | 4 => ⟨S_, .f32⟩
  | 5 => ⟨S_, .f32⟩
  | 6 => ⟨S50000, .f32⟩
  | 7 => ⟨S50000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000, .f32⟩
  | 17 => ⟨S800000, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000, .f32⟩
  | 27 => ⟨S800000, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S800000x1, .f32⟩
  | 39 => ⟨S800000x128, .f32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S256x128, .f32⟩
  | 50 => ⟨S50000x1, .i32⟩
  | 51 => ⟨S256x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call1_cst : Ref sig .tc := ⟨.hbm, 66, rfl⟩
abbrev main_call1_v0 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_call2_v0 : Ref sig .tc := ⟨.hbm, 78, rfl⟩
abbrev main_call2_v1 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_15 : Ref sig .tc := ⟨.hbm, 102, rfl⟩
abbrev main_v69 : Ref sig .tc := ⟨.hbm, 103, rfl⟩
abbrev main_v70 : Ref sig .tc := ⟨.hbm, 104, rfl⟩
abbrev main_c_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_17 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call3_cst : Ref sig .tc := ⟨.hbm, 121, rfl⟩
abbrev main_call3_v0 : Ref sig .tc := ⟨.hbm, 122, rfl⟩
abbrev main_v85 : Ref sig .tc := ⟨.hbm, 123, rfl⟩
abbrev main_cst_18 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_19 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_20 : Ref sig .tc := ⟨.hbm, 132, rfl⟩
abbrev main_call4_v0 : Ref sig .tc := ⟨.hbm, 133, rfl⟩
abbrev main_call4_v1 : Ref sig .tc := ⟨.hbm, 134, rfl⟩
abbrev main_v92 : Ref sig .tc := ⟨.hbm, 135, rfl⟩
abbrev main_c_21 : Ref sig .tc := ⟨.hbm, 136, rfl⟩
abbrev main_v93 : Ref sig .tc := ⟨.hbm, 137, rfl⟩
abbrev main_v94 : Ref sig .tc := ⟨.hbm, 138, rfl⟩
abbrev main_c_22 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_c_23 : Ref sig .tc := ⟨.hbm, 146, rfl⟩
abbrev main_v101 : Ref sig .tc := ⟨.hbm, 147, rfl⟩
abbrev main_v102 : Ref sig .tc := ⟨.hbm, 148, rfl⟩
abbrev main_c_24 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_c_25 : Ref sig .tc := ⟨.hbm, 157, rfl⟩
abbrev main_v110 : Ref sig .tc := ⟨.hbm, 158, rfl⟩
abbrev main_v111 : Ref sig .tc := ⟨.hbm, 159, rfl⟩
abbrev main_c_26 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_27 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_28 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S256x128_S50000x1_S50000x128_1_0_0_1_wf : ScatterDims.WF S256x128 S50000x1 S50000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf

class Facts : Prop extends Facts₀ where

variable [Facts]
-- ==== Proof.KRun.lean ====
/-
  The idealized kernel's run, with every buffer named at the end.

  The program is thirteen segments: stretches of host operations and six kernel launches.  The contents of the
  device's buffers at each boundary between segments form a chain, each link a function of the one before: a
  stretch of host operations applies them in order, a launch replaces its output array by what its grid points
  write back and leaves every other buffer alone.  Every weakly fair execution terminates without fault in a state
  whose every unscoped buffer holds the last link of that chain.  The two results and the ten arguments are then
  read off that one statement.
-/
import proofs.«102977_j3367254360562_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final state every unscoped
    buffer of every core holds the contents of the last boundary of the chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- The same run, read at the two result buffers and the ten argument buffers. -/
theorem run_results : θ_run defs (onTc (τ := τ) (main (F := F))) ⟨m, fun _ => 0, ρ⟩ (fun r => ∀ c : Dev nD,
      r.2.mem ((c.tc : Thread nD τ).loc main_v71) = W13 m ρ c (Proc.devRef .tc main_v71)
      ∧ r.2.mem ((c.tc : Thread nD τ).loc main_v74) = W13 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c =>
      ⟨h c _ (mem_uc main_v71 (by decide)),
       h c _ (mem_uc main_v74 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)
    (run_all m ρ)

end Cert.KernelIdeal.Whole

end
-- ==== Proof.Net.lean ====
/-
  The network as one function of its inputs.

  A graph with 50000 nodes and 800000 weighted edges; every edge e runs from node row(e) to node col(e) and
  carries a weight w(e).  The weighted in-degree of a node is deg(i) = Σ_{col(e) = i} w(e); its inverse square root,
  taken as 0 where the degree is not positive, is dinv(i).  Every edge gets the symmetric normalisation
  norm(e) = dinv(row(e)) · w(e) · dinv(col(e)).

  One layer takes node features x (one row of 128 numbers per node), multiplies by a 128×128 weight matrix,
  and for every node i sums, over the edges that end in i, the product row of the edge's source node scaled by
  the edge's normalisation, then adds a bias row:
      layer(x)(i, ·) = Σ_{col(e) = i} norm(e) · (x · W)(row(e), ·) + b.
  The first two layers are followed by max(·, 0).  The network's first result is the third layer's output; its
  second result sums those rows within each of 256 groups of nodes.

  Every operation is the host's own: edge endpoints are read by a gather whose negative indices wrap once, the
  sums over edges are scatter-adds into zero arrays.  The definitions below spell the operations in that form so
  that both programs' results can be compared with them operation by operation.
-/
import proofs.«102977_j3367254360562_1_alg».proof.ReferenceIdeal

noncomputable section

namespace Cert.Net

open Cert.ReferenceIdeal Cert.ReferenceIdeal.Facts₀ Idealize.ShloMosaic

variable [Cert.ReferenceIdeal.Facts]
variable {F : FTy → Type} [FloatOps F]

/-- The source node of every edge: the first row of the 2×E endpoint table. -/
def rowV (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The target node of every edge: the second row of the endpoint table. -/
def colV (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- A negative node number counts from the end: v + 50000 where v < 0, else v. -/
def wrap (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

/-- Node numbers laid out as a one-column table of indices. -/
def idxCol (v : (⟨S800000, .i32⟩ : BufTy).Contents (Elt F)) : (⟨S800000x1, .i32⟩ : BufTy).Contents (Elt F) :=
  broadcastInDim S800000x1 ![0] bcast_S800000_S800000x1_0 v

/-- deg(i) = Σ_{col(e) = i} w(e). -/
def deg (ei : (⟨S2x800000, .i32⟩ : BufTy).Contents (Elt F)) (ea : (⟨S800000, .f32⟩ : BufTy).Contents (Elt F)) :
    (⟨S50000, .f32⟩ : BufTy).Contents (Elt F) :=
  Host.scatterAdd scatter_S50000_S800000x1_S800000_n_0_0_1
    (broadcastInDim S50000 ![] bcast_S_S50000 (constant S_ .f32 0x00000000#32)) (idxCol (colV ei)) ea

/-- dinv(i) = deg(i)^(-1/2) where deg(i) > 0, else 0. -/
def dinv (ei : (⟨S2x800000, .i32⟩ : BufTy).Contents (Elt F)) (ea : (⟨S800000, .f32⟩ : BufTy).Contents (Elt F)) :
    (⟨S50000, .f32⟩ : BufTy).Contents (Elt F) :=
  select (cmpf .ogt (deg ei ea) (broadcastInDim S50000 ![] bcast_S_S50000 (constant S_ .f32 0x00000000#32)))
    (Host.rsqrt (deg ei ea)) (broadcastInDim S50000 ![] bcast_S_S50000 (id (constant S_ .f32 0x00000000#32)))

/-- norm(e) = dinv(row(e)) · w(e) · dinv(col(e)). -/
def norm (ei : (⟨S2x800000, .i32⟩ : BufTy).Contents (Elt F)) (ea : (⟨S800000, .f32⟩ : BufTy).Contents (Elt F)) :
    (⟨S800000, .f32⟩ : BufTy).Contents (Elt F) :=
  mulf (mulf (Host.gather gather_S50000_S800000x1_S800000_n_0_n_n_0_1_1 (dinv ei ea) (idxCol (wrap (rowV ei)))) ea)
    (Host.gather gather_S50000_S800000x1_S800000_n_0_n_n_0_1_1 (dinv ei ea) (idxCol (wrap (colV ei))))

/-- Message passing with the per-edge scale given: agg(h)(i, ·) = Σ_{col(e) = i} s(e) · h(row(e), ·). -/
def aggWith (h : (⟨S50000x128, .f32⟩ : BufTy).Contents (Elt F)) (row col : (⟨S800000, .i32⟩ : BufTy).Contents (Elt F))
    (s : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (idxCol col)
    (mulf (Host.gather gather_S50000x128_S800000x1_S800000x128_1_0_n_n_0_1_1128 h (idxCol (wrap row)))
      (broadcastInDim S800000x128 ![0, 1] bcast_S800000x1_S800000x128_0_1
        (broadcastInDim S800000x1 ![0] bcast_S800000_S800000x1_0 s)))

/-- Message passing over the graph's own endpoints and normalisation. -/
def agg (h : (⟨S50000x128, .f32⟩ : BufTy).Contents (Elt F)) (ei : (⟨S2x800000, .i32⟩ : BufTy).Contents (Elt F))
    (ea : (⟨S800000, .f32⟩ : BufTy).Contents (Elt F)) : (⟨S50000x128, .f32⟩ : BufTy).Contents (Elt F) :=
  aggWith h (rowV ei) (colV ei) (norm ei ea)

/-- x · W: at (i, j) the sum over k of x(i, k) · W(k, j). -/
def dense (x : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none x w

/-- a(i, j) + b(j). -/
def addBias (a : (⟨S50000x128, .f32⟩ : BufTy).Contents (Elt F)) (b : (⟨S128, .f32⟩ : BufTy).Contents (Elt F)) :
    (⟨S50000x128, .f32⟩ : BufTy).Contents (Elt F) :=
  addf a (broadcastInDim S50000x128 ![0, 1] bcast_S1x128_S50000x128_0_1 (broadcastInDim S1x128 ![1] bcast_S128_S1x128_1 b))

/-- max(a(i, j), 0). -/
def relu (a : (⟨S50000x128, .f32⟩ : BufTy).Contents (Elt F)) : (⟨S50000x128, .f32⟩ : BufTy).Contents (Elt F) :=
  maximumf a (broadcastInDim S50000x128 ![] bcast_S_S50000x128 (constant S_ .f32 0x00000000#32))

/-- One layer without the activation. -/
def layer (x : (⟨S50000x128, .f32⟩ : BufTy).Contents (Elt F)) (w : (⟨S128x128, .f32⟩ : BufTy).Contents (Elt F))
    (b : (⟨S128, .f32⟩ : BufTy).Contents (Elt F)) (ei : (⟨S2x800000, .i32⟩ : BufTy).Contents (Elt F))
    (ea : (⟨S800000, .f32⟩ : BufTy).Contents (Elt F)) : (⟨S50000x128, .f32⟩ : BufTy).Contents (Elt F) :=
  addBias (agg (dense x w) ei ea) b

/-- The network's node features: three layers, the first two followed by max(·, 0). -/
def nodeOut (gx : (⟨S50000x128, .f32⟩ : BufTy).Contents (Elt F)) (ei : (⟨S2x800000, .i32⟩ : BufTy).Contents (Elt F))
    (ea : (⟨S800000, .f32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F)) :
    (⟨S50000x128, .f32⟩ : BufTy).Contents (Elt F) :=
  layer (relu (layer (relu (layer gx w1 b1 ei ea)) w2 b2 ei ea)) w3 b3 ei ea

/-- The per-group sums of node features: readout(g, ·) = Σ_{batch(i) = g} h(i, ·). -/
def readout (h : (⟨S50000x128, .f32⟩ : BufTy).Contents (Elt F)) (batch : (⟨S50000, .i32⟩ : BufTy).Contents (Elt F)) :
    (⟨S256x128, .f32⟩ : BufTy).Contents (Elt F) :=
  Host.scatterAdd scatter_S256x128_S50000x1_S50000x128_1_0_0_1
    (broadcastInDim S256x128 ![] bcast_S_S256x128 (constant S_ .f32 0x00000000#32))
    (broadcastInDim S50000x1 ![0] bcast_S50000_S50000x1_0 batch) h

end Cert.Net

end
-- ==== Proof.LibMatmul.lean ====
/-
  A row-by-column matrix product read at an index, over the extended reals.

  For the plain dimension numbers (left operand M×K contracted on its second axis, right operand K×N contracted on
  its first, no batch axis) the product accumulated into the zero matrix is, at row r and column c,
  the sum over k < K of lhs(r, k) · rhs(k, c).  The contraction index of the dimension numbers is a rank-1
  index; the sum is re-indexed through its one coordinate.
-/
import Idealize.ShloMosaic.PureOps.Ideal.Laws
import Idealize.ShloMosaic.Lib.ValueIdx

noncomputable section

namespace LibMatmul

open Idealize.ShloMosaic Idealize.ShloMosaic.ValueIdx

/-- The row coordinate of a rank-2 index, as a number below the first extent. -/
abbrev rowOf {M N : Nat} (j : (⟨2, ![M, N]⟩ : Shape).Idx) : Fin M := ⟨(j 0).val, (j 0).isLt⟩
/-- The column coordinate of a rank-2 index, as a number below the second extent. -/
abbrev colOf {M N : Nat} (j : (⟨2, ![M, N]⟩ : Shape).Idx) : Fin N := ⟨(j 1).val, (j 1).isLt⟩

/-- The sum a matrix product is, with the contraction index a plain number below K. -/
theorem plain_sum (M K N : Nat) (lhs : (⟨2, ![M, K]⟩ : Shape).Idx → EReal) (rhs : (⟨2, ![K, N]⟩ : Shape).Idx → EReal)
    (j : (⟨2, ![M, N]⟩ : Shape).Idx) :
    (∑ k : (DotDims.plain M K N).contr.Idx, lhs ((DotDims.plain M K N).lhsIdx j k) * rhs ((DotDims.plain M K N).rhsIdx j k))
      = ∑ k : Fin K, lhs (ix2 (rowOf j) k) * rhs (ix2 k (colOf j)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (rowOf j) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (colOf j) :=
    funext fun a => Fin.ext (by
      match a with
      | ⟨0, _⟩ => exact ((DotDims.plain M K N).rhsIdx_val_of_single rfl j _).trans hk
      | ⟨1, _⟩ => rfl)
  rw [el, er]

/-- A matrix product accumulated into the zero matrix, read at an index. -/
theorem matmul_zero_apply (M K N : Nat) (prec : Option ContractPrecision)
    (lhs : FVec Ideal ⟨2, ![M, K]⟩ .f32) (rhs : FVec Ideal ⟨2, ![K, N]⟩ .f32) (j : (⟨2, ![M, N]⟩ : Shape).Idx) :
    FloatOps.matmul (DotDims.plain M K N) prec lhs rhs (constant (F := Ideal) ⟨2, ![M, N]⟩ .f32 0x00000000#32) j
      = ∑ k : Fin K, lhs (ix2 (rowOf j) k) * rhs (ix2 k (colOf j)) := by
  rw [Ideal.matmul_constant_zero_apply]
  exact plain_sum M K N lhs rhs j

/-- The host's general dot product with the same dimension numbers, read at an index. -/
theorem dotGeneral_apply (M K N : Nat) (prec : Option ContractPrecision) (sched : HostSchedule)
    (lhs : FVec Ideal ⟨2, ![M, K]⟩ .f32) (rhs : FVec Ideal ⟨2, ![K, N]⟩ .f32) (j : (⟨2, ![M, N]⟩ : Shape).Idx) :
    FloatOps.dotGeneral (DotDims.plain M K N) prec sched lhs rhs j
      = ∑ k : Fin K, lhs (ix2 (rowOf j) k) * rhs (ix2 k (colOf j)) := by
  rw [Ideal.dotGeneral_apply]
  exact plain_sum M K N lhs rhs j

end LibMatmul

end
-- ==== Proof.LibDense.lean ====
/-
  The pieces of a dense layer read at one entry, over the extended reals.

  A matrix product reads, at row r and column c, the sum over k of A(r, k) · B(k, c): row r of A against
  column c of B.  The product accumulated into the zero matrix and the plain product are both this sum when
  their dimension numbers are the plain ones (left operand contracted on its second axis, right operand on its
  first, no batch axis), whatever float formats the operands carry.  A one-column matrix spread across the
  columns reads, at (r, c), its entry of row r; a single number spread over a whole array reads that number.
-/
import Idealize.ShloMosaic.PureOps.Ideal.Laws
import Idealize.ShloMosaic.Lib.ValueIdx
import Idealize.ShloMosaic.Lib.Pipeline.Value
import proofs.«102977_j3367254360562_1_alg».proof.Proof.LibMatmul

noncomputable section

namespace Cert.Hand.Dense

open Idealize.ShloMosaic Idealize.ShloMosaic.ValueIdx

/-- Column `c` of a matrix, as a function of the row. -/
def col {a b : ℕ} (A : (⟨2, ![a, b]⟩ : Shape).Idx → EReal) (c : Fin b) : Fin a → EReal := fun k => A (ix2 k c)

/-- Row `r` of a matrix against a vector: the sum over k of A(r, k) · v(k). -/
def lin {a k : ℕ} (A : (⟨2, ![a, k]⟩ : Shape).Idx → EReal) (v : Fin k → EReal) (r : Fin a) : EReal :=
  ∑ j : Fin k, A (ix2 r j) * v j

theorem col_apply {a b : ℕ} (A : (⟨2, ![a, b]⟩ : Shape).Idx → EReal) (c : Fin b) (k : Fin a) :
    col A c k = A (ix2 k c) := rfl

/-- A product accumulated into the zero matrix, at (r, c): row r of the left operand against column c of the right. -/
theorem matmul_entry {M K N : ℕ} {φ₁ φ₂ : FTy} (prec : Option ContractPrecision)
    (A : FVec Ideal ⟨2, ![M, K]⟩ φ₁) (B : FVec Ideal ⟨2, ![K, N]⟩ φ₂) (r : Fin M) (c : Fin N) :
    FloatOps.matmul (DotDims.plain M K N) prec A B (constant (F := Ideal) ⟨2, ![M, N]⟩ .f32 0x00000000#32) (ix2 r c)
      = lin A (col B c) r := by
  rw [Ideal.matmul_constant_zero_apply]
  exact LibMatmul.plain_sum M K N A B (ix2 r c)

/-- The plain product, at (r, c): the same sum. -/
theorem dot_entry {M K N : ℕ} {φ₁ φ₂ : FTy} (prec : Option ContractPrecision) (sched : HostSchedule)
    (A : FVec Ideal ⟨2, ![M, K]⟩ φ₁) (B : FVec Ideal ⟨2, ![K, N]⟩ φ₂) (r : Fin M) (c : Fin N) :
    FloatOps.dotGeneral (DotDims.plain M K N) prec sched A B (ix2 r c) = lin A (col B c) r := by
  rw [Ideal.dotGeneral_apply]
  exact LibMatmul.plain_sum M K N A B (ix2 r c)

variable {α : Type}

/-- An a-by-1 column spread across b columns (each operand axis kept in place) reads, at (r, c), the column at row r. -/
theorem spread_col_apply {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    rw [if_pos rfl]

/-- A single value spread over a whole array reads that value everywhere. -/
theorem spread_scalar_apply {s : Shape} (y : (⟨0, ![]⟩ : Shape).Idx → α)
    (h : (⟨0, ![]⟩ : Shape).BroadcastsInDim s ![]) (j : s.Idx) :
    broadcastInDim s ![] h y j = y ix0 :=
  broadcastInDim_apply _ h y j ix0 fun ax => ax.elim0

end Cert.Hand.Dense

end
-- ==== Proof.PayAt.lean ====
/-
  What each kernel body stores, read at one entry of its block, over the extended reals.

  A block is 2000 rows of 128 numbers.  The product bodies store, at (r, q), the sum over k of x(r, k) · w(k, q):
  rounding the operands to a narrower format first changes nothing over the extended reals, and the product is
  accumulated into zeros.  The bias bodies store x(r, q) + b(q), the first two followed by the maximum with zero:
  the bias vector is read as a one-row matrix and that row is repeated down the block.
-/
import proofs.«102977_j3367254360562_1_alg».proof.Proof.Gen.KernelIdeal.Skeleton
import proofs.«102977_j3367254360562_1_alg».proof.Proof.LibDense
import Idealize.ShloMosaic.Lib.ValueIdx
import Idealize.ShloMosaic.Lib.ValueLayout
import Idealize.ShloMosaic.Lib.Pipeline.Value

noncomputable section

namespace Cert.KernelIdeal.Whole

open Cert.KernelIdeal Cert.KernelIdeal.Gen Idealize.ShloMosaic Idealize.ShloMosaic.ValueIdx

/-- The first layer's product body at (r, q): row r of the node block against column q of the weights. -/
theorem k0_pay1_apply (x : Vec Ideal S2000x128 .f32) (w : Vec Ideal S128x128 .f32) (r : Fin 2000) (q : Fin 128) :
    k0_pay1 (F := Ideal) x w (ix2 r q) = ∑ k : Fin 128, x (ix2 r k) * w (ix2 k q) := by
  unfold k0_pay1
  exact Cert.Hand.Dense.matmul_entry (M := 2000) (K := 128) (N := 128) none
    (truncf .bf16 x bitsLt_bf16_f32) (truncf .bf16 w bitsLt_bf16_f32) r q

/-- The second layer's product body is the first's: its extra cast of the block to its own shape is the identity. -/
theorem k2_pay1_eq (x : Vec Ideal S2000x128 .f32) (w : Vec Ideal S128x128 .f32) :
    k2_pay1 (F := Ideal) x w = k0_pay1 (F := Ideal) x w := by
  unfold k2_pay1 k0_pay1
  dsimp only
  rw [shapeCast_self]

/-- The third layer's product body likewise. -/
theorem k4_pay1_eq (x : Vec Ideal S2000x128 .f32) (w : Vec Ideal S128x128 .f32) :
    k4_pay1 (F := Ideal) x w = k0_pay1 (F := Ideal) x w := by
  unfold k4_pay1 k0_pay1
  dsimp only
  rw [shapeCast_self]

/-- The bias row repeated down a block, at (r, q): the bias at q. -/
theorem biasRow_apply (b : Vec Ideal S128 .f32) (r : Fin 2000) (q : Fin 128) :
    broadcastTo S2000x128 (shapeCast S1x128 b shapeCasts_S128_S1x128) broadcasts_S1x128_S2000x128 (ix2 r q) = b (ix1 q) := by
  rw [broadcastTo_1b_ab_apply, shapeCast_a_1a_apply]

/-- The last layer's bias body at (r, q): x(r, q) + b(q). -/
theorem k5_pay1_apply (x : Vec Ideal S2000x128 .f32) (b : Vec Ideal S128 .f32) (r : Fin 2000) (q : Fin 128) :
    k5_pay1 (F := Ideal) x b (ix2 r q) = x (ix2 r q) + b (ix1 q) := by
  unfold k5_pay1
  rw [shapeCast_self]
  show x (ix2 r q) + _ = _
  rw [biasRow_apply]

/-- The first layer's bias body at (r, q): max(x(r, q) + b(q), 0). -/
theorem k1_pay1_apply (x : Vec Ideal S2000x128 .f32) (b : Vec Ideal S128 .f32) (r : Fin 2000) (q : Fin 128) :
    k1_pay1 (F := Ideal) x b (ix2 r q) = max (x (ix2 r q) + b (ix1 q)) (Ideal.ofBits .f32 0x00000000#32) := by
  unfold k1_pay1
  rw [shapeCast_self]
  show max (x (ix2 r q) + _) _ = _
  rw [biasRow_apply]
  rfl

/-- The second layer's bias body is the first's. -/
theorem k3_pay1_eq (x : Vec Ideal S2000x128 .f32) (b : Vec Ideal S128 .f32) :
    k3_pay1 (F := Ideal) x b = k1_pay1 (F := Ideal) x b := rfl

end Cert.KernelIdeal.Whole

end
-- ==== Proof.NetAt.lean ====
/-
  The network's dense step, bias step and activation, read at one entry, over the extended reals.

  (x · W)(p, q) is the sum over k of x(p, k) · W(k, q).  Adding the bias reads b(q) at every row: the bias is laid
  out as a one-row matrix and that row repeated over the 50000 rows.  The activation is the maximum with the
  constant zero.
-/
import proofs.«102977_j3367254360562_1_alg».proof.Proof.Net
import proofs.«102977_j3367254360562_1_alg».proof.Proof.LibDense
import proofs.«102977_j3367254360562_1_alg».proof.Proof.Gen.ReferenceIdeal
import Idealize.ShloMosaic.Lib.ValueIdx
import Idealize.ShloMosaic.Lib.Pipeline.Value

noncomputable section

namespace Cert.Net

open Cert.ReferenceIdeal Cert.ReferenceIdeal.Facts₀ Idealize.ShloMosaic Idealize.ShloMosaic.ValueIdx

/-- (x · W)(p, q) = Σ_k x(p, k) · W(k, q). -/
theorem dense_apply (x : (⟨S50000x128, .f32⟩ : BufTy).Contents (Elt Ideal)) (w : (⟨S128x128, .f32⟩ : BufTy).Contents (Elt Ideal))
    (p : Fin 50000) (q : Fin 128) :
    dense (F := Ideal) x w (ix2 p q) = ∑ k : Fin 128, x (ix2 p k) * w (ix2 k q) := by
  unfold dense
  simp only [Host.dotGeneral]
  exact Cert.Hand.Dense.dot_entry (M := 50000) (K := 128) (N := 128) none _ x w p q

/-- The bias laid over every row, at (p, q): b(q). -/
theorem biasRows_apply (b : (⟨S128, .f32⟩ : BufTy).Contents (Elt Ideal)) (p : Fin 50000) (q : Fin 128) :
    broadcastInDim S50000x128 ![0, 1] bcast_S1x128_S50000x128_0_1 (broadcastInDim S1x128 ![1] bcast_S128_S1x128_1 b) (ix2 p q)
      = b (ix1 q) := by
  rw [broadcastInDim_apply ![0, 1] bcast_S1x128_S50000x128_0_1 _ (ix2 p q) (ix2 (0 : Fin 1) q) (fun a => by
    match a with
    | ⟨0, _⟩ => rfl
    | ⟨1, _⟩ => rfl)]
  exact broadcastInDim_apply ![1] bcast_S128_S1x128_1 b (ix2 (0 : Fin 1) q) (ix1 q) (fun a => by
    match a with
    | ⟨0, _⟩ => rfl)

/-- (a + b)(p, q) = a(p, q) + b(q). -/
theorem addBias_apply (a : (⟨S50000x128, .f32⟩ : BufTy).Contents (Elt Ideal)) (b : (⟨S128, .f32⟩ : BufTy).Contents (Elt Ideal))
    (p : Fin 50000) (q : Fin 128) :
    addBias (F := Ideal) a b (ix2 p q) = a (ix2 p q) + b (ix1 q) := by
  unfold addBias
  show a (ix2 p q) + _ = _
  rw [biasRows_apply]

/-- relu(a)(i) = max(a(i), 0). -/
theorem relu_apply (a : (⟨S50000x128, .f32⟩ : BufTy).Contents (Elt Ideal)) (i : S50000x128.Idx) :
    relu (F := Ideal) a i = max (a i) (Ideal.ofBits .f32 0x00000000#32) := rfl

end Cert.Net

end
-- ==== Proof.BlockExt.lean ====
/-
  Two blocks of 2000 rows of 128 numbers are equal when they agree at every (row, column); and the zero offset
  pair written two ways.
-/
import Idealize.ShloMosaic.Lib.ValueIdx
import Idealize.ShloMosaic.Lib.Pipeline.Value

noncomputable section

namespace Cert.KernelIdeal.Whole

open Idealize.ShloMosaic Idealize.ShloMosaic.ValueIdx

theorem hz2 : (![0, 0] : Fin 2 → Nat) = fun _ => 0 := funext fun a => by fin_cases a <;> rfl
theorem hz1 : (![0] : Fin 1 → Nat) = fun _ => 0 := funext fun a => by fin_cases a; rfl

/-- Agreement at every (row, column) is equality of blocks. -/
theorem block_ext {α : Type} (f g : (⟨2, ![2000, 128]⟩ : Shape).Idx → α)
    (h : ∀ (r : Fin 2000) (q : Fin 128), f (ix2 r q) = g (ix2 r q)) : f = g :=
  funext fun j => by rw [eq_ix2 j]; exact h _ _

end Cert.KernelIdeal.Whole

end
-- ==== Proof.Region0.lean ====
/-
  Kernel launch 0: a product of node features with a weight matrix, 2000 rows at a time.

  Grid point t reads rows 2000·t … 2000·t + 1999 of the node features and the whole weight matrix, and writes
  back rows 2000·t … 2000·t + 1999 of the result.  A row of a product depends only on the same row of the left
  operand, so every block written back is a block of the one product of the whole arrays; the 25 blocks tile
  the 50000 rows, hence the result array ends holding that product.
-/
import proofs.«102977_j3367254360562_1_alg».proof.Proof.Gen.KernelIdeal.Frame
import proofs.«102977_j3367254360562_1_alg».proof.Proof.PayAt
import proofs.«102977_j3367254360562_1_alg».proof.Proof.NetAt
import proofs.«102977_j3367254360562_1_alg».proof.Proof.BlockExt
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Where each window's block sits at grid point t: the node features and the result at block row t, the weights
    always at their only block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node-feature block at point t, at (r, k): the array at row 2000·t + r. -/
theorem iblk0_0_apply (c : Dev nD) (t : Fin cfg0.N) (r : Fin 2000) (k : Fin 128) (p : Fin 50000)
    (hp : p.val = t.val * 2000 + r.val) :
    (iblk0 V c 0 t : Vec Ideal S2000x128 .f32) (ix2 r k) = (V c main_arg0 : S50000x128.Idx → Elt Ideal .f32) (ix2 p k) := by
  obtain ⟨e00, e01, -⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * r.val = p.val; omega
  | ⟨1, _⟩ => show win0_0.index t (1 : Fin 2) * 128 + 1 * k.val = k.val; omega

/-- The weight block at any point is the weight matrix. -/
theorem iblk0_1_apply (c : Dev nD) (t : Fin cfg0.N) (k : Fin 128) (q : Fin 128) :
    (iblk0 V c 1 t : Vec Ideal S128x128 .f32) (ix2 k q) = (V c main_arg4 : S128x128.Idx → Elt Ideal .f32) (ix2 k q) := by
  obtain ⟨-, -, e10, e11, -⟩ := idx0 t
  unfold iblk0
  rw [View.read_apply]
  show V c main_arg4 _ = V c main_arg4 _
  refine congrArg (V c main_arg4) ?_
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- What point t writes back is block t of the product of the whole arrays. -/
theorem flushed0 (c : Dev nD) (t : Fin cfg0.N) :
    (dat0 V c).flushed 2 t
      = ((cfg0.win 2).blk t).view.read (Elt Ideal) (Cert.Net.dense (F := Ideal) (V c main_arg0) (V c main_arg4)) := by
  obtain ⟨-, -, -, -, e20, e21⟩ := idx0 t
  have hN : cfg0.N = 25 := N_0
  have htl : t.val < 25 := hN ▸ t.isLt
  show (cfg0.win 2).cut (grid0.coords t) ((dat0 V c).after 2 t) = _
  rw [after0_2]
  unfold out0_2
  rw [View.canon_unit_zero hz2]
  simp only [View.ld_unit_zero (S := S2000x128) hz2, View.ld_unit_zero (S := S128x128) hz2]
  refine block_ext _ _ fun r q => ?_
  have hp : t.val * 2000 + r.val < 50000 := by have := r.isLt; omega
  have he : ((cfg0.win 2).blk t).view.emb (ix2 r q) = ix2 (⟨t.val * 2000 + r.val, hp⟩ : Fin 50000) q := by
    funext a
    apply Fin.ext
    match a with
    | ⟨0, _⟩ => show win0_2.index t (0 : Fin 2) * 2000 + 1 * r.val = t.val * 2000 + r.val; omega
    | ⟨1, _⟩ => show win0_2.index t (1 : Fin 2) * 128 + 1 * q.val = q.val; omega
  show k0_pay1 (F := Ideal) (iblk0 V c 0 t) (iblk0 V c 1 t) (ix2 r q)
    = Cert.Net.dense (F := Ideal) (V c main_arg0) (V c main_arg4) (((cfg0.win 2).blk t).view.emb (ix2 r q))
  rw [he]
  refine (k0_pay1_apply (iblk0 V c 0 t) (iblk0 V c 1 t) r q).trans ?_
  refine Eq.trans ?_ (Cert.Net.dense_apply (V c main_arg0) (V c main_arg4) ⟨t.val * 2000 + r.val, hp⟩ q).symm
  refine Finset.sum_congr rfl fun k _ => ?_
  rw [iblk0_0_apply V c t r k ⟨t.val * 2000 + r.val, hp⟩ rfl, iblk0_1_apply V c t k q]

/-- An index of the result array is in point t's block when its row is among the block's 2000 rows. -/
theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v27).slice (win0_2.rect t)).set ↔ _
  rw [View.set_slice_whole, Rect.mem_set_unit]
  exact Iff.rfl

/-- Every row of the result is in the block of the point numbered by the row divided by 2000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, e20, e21⟩ := idx0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e21]; omega

/-- After the launch the result array holds the product of the arrays the launch found. -/
theorem region0 (c : Dev nD) :
    (dat0 V c).arrAt 2 cfg0.N = Cert.Net.dense (F := Ideal) (V c main_arg0) (V c main_arg4) :=
  (dat0 V c).arrAt_eq_of_cover 2 _ (fun t _ => flushed0 V c t) (cover0)

end Cert.KernelIdeal.Whole

end
-- ==== Proof.Region1.lean ====
/-
  Kernel launch 1: a bias row added to every row of the aggregated features, then the maximum with zero, 2000 rows at a time.

  Grid point t reads rows 2000·t … 2000·t + 1999 of the features and the whole bias vector, and writes back the
  same rows of the result.  Each entry depends only on the entry of the features at the same place and on the
  bias at its column, so every block written back is a block of one function of the whole arrays; the 25 blocks
  tile the 50000 rows.
-/
import proofs.«102977_j3367254360562_1_alg».proof.Proof.Gen.KernelIdeal.Frame
import proofs.«102977_j3367254360562_1_alg».proof.Proof.PayAt
import proofs.«102977_j3367254360562_1_alg».proof.Proof.NetAt
import proofs.«102977_j3367254360562_1_alg».proof.Proof.BlockExt
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Where each window's block sits at grid point t. -/
theorem idx1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The feature block at point t, at (r, q): the array at row 2000·t + r. -/
theorem iblk1_0_apply (c : Dev nD) (t : Fin cfg1.N) (r : Fin 2000) (q : Fin 128) (p : Fin 50000)
    (hp : p.val = t.val * 2000 + r.val) :
    (iblk1 V c 0 t : Vec Ideal S2000x128 .f32) (ix2 r q) = (V c main_v40 : S50000x128.Idx → Elt Ideal .f32) (ix2 p q) := by
  obtain ⟨e00, e01, -⟩ := idx1 t
  unfold iblk1
  rw [View.read_apply]
  show V c main_v40 _ = V c main_v40 _
  refine congrArg (V c main_v40) ?_
  funext a
  apply Fin.ext
  match a with
  | ⟨0, _⟩ => show win1_0.index t (0 : Fin 2) * 2000 + 1 * r.val = p.val; omega
  | ⟨1, _⟩ => show win1_0.index t (1 : Fin 2) * 128 + 1 * q.val = q.val; omega

/-- The bias block at any point is the bias vector. -/
theorem iblk1_1_apply (c : Dev nD) (t : Fin cfg1.N) (q : Fin 128) :
    (iblk1 V c 1 t : Vec Ideal S128 .f32) (ix1 q) = (V c main_arg5 : S128.Idx → Elt Ideal .f32) (ix1 q) := by
  obtain ⟨-, -, e10, -⟩ := idx1 t
  unfold iblk1
  rw [View.read_apply]
  show V c main_arg5 _ = V c main_arg5 _
  refine congrArg (V c main_arg5) ?_
  funext a
  apply Fin.ext
  match a with
  | ⟨0, _⟩ => show win1_1.index t (0 : Fin 1) * 128 + 1 * q.val = q.val; omega

/-- The result as one function of the whole arrays. -/
abbrev G1 (a : (⟨Cert.ReferenceIdeal.S50000x128, .f32⟩ : BufTy).Contents (Elt Ideal))
    (b : (⟨Cert.ReferenceIdeal.S128, .f32⟩ : BufTy).Contents (Elt Ideal)) :
    (⟨Cert.ReferenceIdeal.S50000x128, .f32⟩ : BufTy).Contents (Elt Ideal) :=
  Cert.Net.relu (F := Ideal) (Cert.Net.addBias (F := Ideal) a b)

/-- What point t writes back is block t of that function of the whole arrays. -/
theorem flushed1 (c : Dev nD) (t : Fin cfg1.N) :
    (dat1 V c).flushed 2 t = ((cfg1.win 2).blk t).view.read (Elt Ideal) (G1 (V c main_v40) (V c main_arg5)) := by
  obtain ⟨-, -, -, e20, e21⟩ := idx1 t
  have hN : cfg1.N = 25 := N_1
  have htl : t.val < 25 := hN ▸ t.isLt
  show (cfg1.win 2).cut (grid1.coords t) ((dat1 V c).after 2 t) = _
  rw [after1_2]
  unfold out1_2
  rw [View.canon_unit_zero hz2]
  simp only [View.ld_unit_zero (S := S2000x128) hz2, View.ld_unit_zero (S := S128) hz1]
  refine block_ext _ _ fun r q => ?_
  have hp : t.val * 2000 + r.val < 50000 := by have := r.isLt; omega
  have he : ((cfg1.win 2).blk t).view.emb (ix2 r q) = ix2 (⟨t.val * 2000 + r.val, hp⟩ : Fin 50000) q := by
    funext a
    apply Fin.ext
    match a with
    | ⟨0, _⟩ => show win1_2.index t (0 : Fin 2) * 2000 + 1 * r.val = t.val * 2000 + r.val; omega
    | ⟨1, _⟩ => show win1_2.index t (1 : Fin 2) * 128 + 1 * q.val = q.val; omega
  show k1_pay1 (F := Ideal) (iblk1 V c 0 t) (iblk1 V c 1 t) (ix2 r q)
    = G1 (V c main_v40) (V c main_arg5) (((cfg1.win 2).blk t).view.emb (ix2 r q))
  rw [he]
  refine (k1_pay1_apply (iblk1 V c 0 t) (iblk1 V c 1 t) r q).trans ?_
  refine Eq.trans ?_ (Cert.Net.relu_apply _ _).symm
  rw [Cert.Net.addBias_apply (V c main_v40) (V c main_arg5) ⟨t.val * 2000 + r.val, hp⟩ q]
  rw [iblk1_0_apply V c t r q ⟨t.val * 2000 + r.val, hp⟩ rfl, iblk1_1_apply V c t q]

/-- An index of the result array is in point t's block when its row is among the block's 2000 rows. -/
theorem mem_blk1 (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v41).slice (win1_2.rect t)).set ↔ _
  rw [View.set_slice_whole, Rect.mem_set_unit]
  exact Iff.rfl

/-- Every row of the result is in the block of the point numbered by the row divided by 2000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, e20, e21⟩ := idx1 ⟨(i 0).val / 2000, ht⟩
  refine ⟨⟨(i 0).val / 2000, ht⟩, flush1_2 _, ?_⟩
  rw [mem_blk1]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win1_2.index ⟨(i 0).val / 2000, ht⟩ (1 : Fin 2) * 128 ≤ (i 1).val
      ∧ (i 1).val < win1_2.index ⟨(i 0).val / 2000, ht⟩ (1 : Fin 2) * 128 + 128
    rw [e21]; omega

/-- After the launch the result array holds that function of the arrays the launch found. -/
theorem region1 (c : Dev nD) :
    (dat1 V c).arrAt 2 cfg1.N = G1 (V c main_v40) (V c main_arg5) :=
  (dat1 V c).arrAt_eq_of_cover 2 _ (fun t _ => flushed1 V c t) (cover1)

end Cert.KernelIdeal.Whole

end
-- ==== Proof.Region2.lean ====
/-
  Kernel launch 2: a product of node features with a weight matrix, 2000 rows at a time.

  Grid point t reads rows 2000·t … 2000·t + 1999 of the node features and the whole weight matrix, and writes
  back rows 2000·t … 2000·t + 1999 of the result.  A row of a product depends only on the same row of the left
  operand, so every block written back is a block of the one product of the whole arrays; the 25 blocks tile
  the 50000 rows, hence the result array ends holding that product.
-/
import proofs.«102977_j3367254360562_1_alg».proof.Proof.Gen.KernelIdeal.Frame
import proofs.«102977_j3367254360562_1_alg».proof.Proof.PayAt
import proofs.«102977_j3367254360562_1_alg».proof.Proof.NetAt
import proofs.«102977_j3367254360562_1_alg».proof.Proof.BlockExt
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Where each window's block sits at grid point t: the node features and the result at block row t, the weights
    always at their only block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The node-feature block at point t, at (r, k): the array at row 2000·t + r. -/
theorem iblk2_0_apply (c : Dev nD) (t : Fin cfg2.N) (r : Fin 2000) (k : Fin 128) (p : Fin 50000)
    (hp : p.val = t.val * 2000 + r.val) :
    (iblk2 V c 0 t : Vec Ideal S2000x128 .f32) (ix2 r k) = (V c main_v41 : S50000x128.Idx → Elt Ideal .f32) (ix2 p k) := by
  obtain ⟨e00, e01, -⟩ := idx2 t
  unfold iblk2
  rw [View.read_apply]
  show V c main_v41 _ = V c main_v41 _
  refine congrArg (V c main_v41) ?_
  funext a
  apply Fin.ext
  match a with
  | ⟨0, _⟩ => show win2_0.index t (0 : Fin 2) * 2000 + 1 * r.val = p.val; omega
  | ⟨1, _⟩ => show win2_0.index t (1 : Fin 2) * 128 + 1 * k.val = k.val; omega

/-- The weight block at any point is the weight matrix. -/
theorem iblk2_1_apply (c : Dev nD) (t : Fin cfg2.N) (k : Fin 128) (q : Fin 128) :
    (iblk2 V c 1 t : Vec Ideal S128x128 .f32) (ix2 k q) = (V c main_arg6 : S128x128.Idx → Elt Ideal .f32) (ix2 k q) := by
  obtain ⟨-, -, e10, e11, -⟩ := idx2 t
  unfold iblk2
  rw [View.read_apply]
  show V c main_arg6 _ = V c main_arg6 _
  refine congrArg (V c main_arg6) ?_
  funext a
  apply Fin.ext
  match a with
  | ⟨0, _⟩ => show win2_1.index t (0 : Fin 2) * 128 + 1 * k.val = k.val; omega
  | ⟨1, _⟩ => show win2_1.index t (1 : Fin 2) * 128 + 1 * q.val = q.val; omega

/-- What point t writes back is block t of the product of the whole arrays. -/
theorem flushed2 (c : Dev nD) (t : Fin cfg2.N) :
    (dat2 V c).flushed 2 t
      = ((cfg2.win 2).blk t).view.read (Elt Ideal) (Cert.Net.dense (F := Ideal) (V c main_v41) (V c main_arg6)) := by
  obtain ⟨-, -, -, -, e20, e21⟩ := idx2 t
  have hN : cfg2.N = 25 := N_2
  have htl : t.val < 25 := hN ▸ t.isLt
  show (cfg2.win 2).cut (grid2.coords t) ((dat2 V c).after 2 t) = _
  rw [after2_2]
  unfold out2_2
  rw [View.canon_unit_zero hz2]
  simp only [View.ld_unit_zero (S := S2000x128) hz2, View.ld_unit_zero (S := S128x128) hz2]
  rw [k2_pay1_eq]
  refine block_ext _ _ fun r q => ?_
  have hp : t.val * 2000 + r.val < 50000 := by have := r.isLt; omega
  have he : ((cfg2.win 2).blk t).view.emb (ix2 r q) = ix2 (⟨t.val * 2000 + r.val, hp⟩ : Fin 50000) q := by
    funext a
    apply Fin.ext
    match a with
    | ⟨0, _⟩ => show win2_2.index t (0 : Fin 2) * 2000 + 1 * r.val = t.val * 2000 + r.val; omega
    | ⟨1, _⟩ => show win2_2.index t (1 : Fin 2) * 128 + 1 * q.val = q.val; omega
  show k0_pay1 (F := Ideal) (iblk2 V c 0 t) (iblk2 V c 1 t) (ix2 r q)
    = Cert.Net.dense (F := Ideal) (V c main_v41) (V c main_arg6) (((cfg2.win 2).blk t).view.emb (ix2 r q))
  rw [he]
  refine (k0_pay1_apply (iblk2 V c 0 t) (iblk2 V c 1 t) r q).trans ?_
  refine Eq.trans ?_ (Cert.Net.dense_apply (V c main_v41) (V c main_arg6) ⟨t.val * 2000 + r.val, hp⟩ q).symm
  refine Finset.sum_congr rfl fun k _ => ?_
  rw [iblk2_0_apply V c t r k ⟨t.val * 2000 + r.val, hp⟩ rfl, iblk2_1_apply V c t k q]

/-- An index of the result array is in point t's block when its row is among the block's 2000 rows. -/
theorem mem_blk2 (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v42).slice (win2_2.rect t)).set ↔ _
  rw [View.set_slice_whole, Rect.mem_set_unit]
  exact Iff.rfl

/-- Every row of the result is in the block of the point numbered by the row divided by 2000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  have ht : (i 0).val / 2000 < cfg2.N := by rw [hN]; omega
  obtain ⟨-, -, -, -, e20, e21⟩ := idx2 ⟨(i 0).val / 2000, ht⟩
  refine ⟨⟨(i 0).val / 2000, ht⟩, flush2_2 _, ?_⟩
  rw [mem_blk2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win2_2.index ⟨(i 0).val / 2000, ht⟩ (1 : Fin 2) * 128 ≤ (i 1).val
      ∧ (i 1).val < win2_2.index ⟨(i 0).val / 2000, ht⟩ (1 : Fin 2) * 128 + 128
    rw [e21]; omega

/-- After the launch the result array holds the product of the arrays the launch found. -/
theorem region2 (c : Dev nD) :
    (dat2 V c).arrAt 2 cfg2.N = Cert.Net.dense (F := Ideal) (V c main_v41) (V c main_arg6) :=
  (dat2 V c).arrAt_eq_of_cover 2 _ (fun t _ => flushed2 V c t) (cover2)

end Cert.KernelIdeal.Whole

end
-- ==== Proof.Region3.lean ====
/-
  Kernel launch 3: a bias row added to every row of the aggregated features, then the maximum with zero, 2000 rows at a time.

  Grid point t reads rows 2000·t … 2000·t + 1999 of the features and the whole bias vector, and writes back the
  same rows of the result.  Each entry depends only on the entry of the features at the same place and on the
  bias at its column, so every block written back is a block of one function of the whole arrays; the 25 blocks
  tile the 50000 rows.
-/
import proofs.«102977_j3367254360562_1_alg».proof.Proof.Gen.KernelIdeal.Frame
import proofs.«102977_j3367254360562_1_alg».proof.Proof.PayAt
import proofs.«102977_j3367254360562_1_alg».proof.Proof.NetAt
import proofs.«102977_j3367254360562_1_alg».proof.Proof.BlockExt
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Where each window's block sits at grid point t. -/
theorem idx3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The feature block at point t, at (r, q): the array at row 2000·t + r. -/
theorem iblk3_0_apply (c : Dev nD) (t : Fin cfg3.N) (r : Fin 2000) (q : Fin 128) (p : Fin 50000)
    (hp : p.val = t.val * 2000 + r.val) :
    (iblk3 V c 0 t : Vec Ideal S2000x128 .f32) (ix2 r q) = (V c main_v55 : S50000x128.Idx → Elt Ideal .f32) (ix2 p q) := by
  obtain ⟨e00, e01, -⟩ := idx3 t
  unfold iblk3
  rw [View.read_apply]
  show V c main_v55 _ = V c main_v55 _
  refine congrArg (V c main_v55) ?_
  funext a
  apply Fin.ext
  match a with
  | ⟨0, _⟩ => show win3_0.index t (0 : Fin 2) * 2000 + 1 * r.val = p.val; omega
  | ⟨1, _⟩ => show win3_0.index t (1 : Fin 2) * 128 + 1 * q.val = q.val; omega

/-- The bias block at any point is the bias vector. -/
theorem iblk3_1_apply (c : Dev nD) (t : Fin cfg3.N) (q : Fin 128) :
    (iblk3 V c 1 t : Vec Ideal S128 .f32) (ix1 q) = (V c main_arg7 : S128.Idx → Elt Ideal .f32) (ix1 q) := by
  obtain ⟨-, -, e10, -⟩ := idx3 t
  unfold iblk3
  rw [View.read_apply]
  show V c main_arg7 _ = V c main_arg7 _
  refine congrArg (V c main_arg7) ?_
  funext a
  apply Fin.ext
  match a with
  | ⟨0, _⟩ => show win3_1.index t (0 : Fin 1) * 128 + 1 * q.val = q.val; omega

/-- The result as one function of the whole arrays. -/
abbrev G3 (a : (⟨Cert.ReferenceIdeal.S50000x128, .f32⟩ : BufTy).Contents (Elt Ideal))
    (b : (⟨Cert.ReferenceIdeal.S128, .f32⟩ : BufTy).Contents (Elt Ideal)) :
    (⟨Cert.ReferenceIdeal.S50000x128, .f32⟩ : BufTy).Contents (Elt Ideal) :=
  Cert.Net.relu (F := Ideal) (Cert.Net.addBias (F := Ideal) a b)

/-- What point t writes back is block t of that function of the whole arrays. -/
theorem flushed3 (c : Dev nD) (t : Fin cfg3.N) :
    (dat3 V c).flushed 2 t = ((cfg3.win 2).blk t).view.read (Elt Ideal) (G3 (V c main_v55) (V c main_arg7)) := by
  obtain ⟨-, -, -, e20, e21⟩ := idx3 t
  have hN : cfg3.N = 25 := N_3
  have htl : t.val < 25 := hN ▸ t.isLt
  show (cfg3.win 2).cut (grid3.coords t) ((dat3 V c).after 2 t) = _
  rw [after3_2]
  unfold out3_2
  rw [View.canon_unit_zero hz2]
  simp only [View.ld_unit_zero (S := S2000x128) hz2, View.ld_unit_zero (S := S128) hz1]
  refine block_ext _ _ fun r q => ?_
  have hp : t.val * 2000 + r.val < 50000 := by have := r.isLt; omega
  have he : ((cfg3.win 2).blk t).view.emb (ix2 r q) = ix2 (⟨t.val * 2000 + r.val, hp⟩ : Fin 50000) q := by
    funext a
    apply Fin.ext
    match a with
    | ⟨0, _⟩ => show win3_2.index t (0 : Fin 2) * 2000 + 1 * r.val = t.val * 2000 + r.val; omega
    | ⟨1, _⟩ => show win3_2.index t (1 : Fin 2) * 128 + 1 * q.val = q.val; omega
  show k1_pay1 (F := Ideal) (iblk3 V c 0 t) (iblk3 V c 1 t) (ix2 r q)
    = G3 (V c main_v55) (V c main_arg7) (((cfg3.win 2).blk t).view.emb (ix2 r q))
  rw [he]
  refine (k1_pay1_apply (iblk3 V c 0 t) (iblk3 V c 1 t) r q).trans ?_
  refine Eq.trans ?_ (Cert.Net.relu_apply _ _).symm
  rw [Cert.Net.addBias_apply (V c main_v55) (V c main_arg7) ⟨t.val * 2000 + r.val, hp⟩ q]
  rw [iblk3_0_apply V c t r q ⟨t.val * 2000 + r.val, hp⟩ rfl, iblk3_1_apply V c t q]

/-- An index of the result array is in point t's block when its row is among the block's 2000 rows. -/
theorem mem_blk3 (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v56).slice (win3_2.rect t)).set ↔ _
  rw [View.set_slice_whole, Rect.mem_set_unit]
  exact Iff.rfl

/-- Every row of the result is in the block of the point numbered by the row divided by 2000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  have ht : (i 0).val / 2000 < cfg3.N := by rw [hN]; omega
  obtain ⟨-, -, -, e20, e21⟩ := idx3 ⟨(i 0).val / 2000, ht⟩
  refine ⟨⟨(i 0).val / 2000, ht⟩, flush3_2 _, ?_⟩
  rw [mem_blk3]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win3_2.index ⟨(i 0).val / 2000, ht⟩ (1 : Fin 2) * 128 ≤ (i 1).val
      ∧ (i 1).val < win3_2.index ⟨(i 0).val / 2000, ht⟩ (1 : Fin 2) * 128 + 128
    rw [e21]; omega

/-- After the launch the result array holds that function of the arrays the launch found. -/
theorem region3 (c : Dev nD) :
    (dat3 V c).arrAt 2 cfg3.N = G3 (V c main_v55) (V c main_arg7) :=
  (dat3 V c).arrAt_eq_of_cover 2 _ (fun t _ => flushed3 V c t) (cover3)

end Cert.KernelIdeal.Whole

end
-- ==== Proof.Region4.lean ====
/-
  Kernel launch 4: a product of node features with a weight matrix, 2000 rows at a time.

  Grid point t reads rows 2000·t … 2000·t + 1999 of the node features and the whole weight matrix, and writes
  back rows 2000·t … 2000·t + 1999 of the result.  A row of a product depends only on the same row of the left
  operand, so every block written back is a block of the one product of the whole arrays; the 25 blocks tile
  the 50000 rows, hence the result array ends holding that product.
-/
import proofs.«102977_j3367254360562_1_alg».proof.Proof.Gen.KernelIdeal.Frame
import proofs.«102977_j3367254360562_1_alg».proof.Proof.PayAt
import proofs.«102977_j3367254360562_1_alg».proof.Proof.NetAt
import proofs.«102977_j3367254360562_1_alg».proof.Proof.BlockExt
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Where each window's block sits at grid point t: the node features and the result at block row t, the weights
    always at their only block. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The node-feature block at point t, at (r, k): the array at row 2000·t + r. -/
theorem iblk4_0_apply (c : Dev nD) (t : Fin cfg4.N) (r : Fin 2000) (k : Fin 128) (p : Fin 50000)
    (hp : p.val = t.val * 2000 + r.val) :
    (iblk4 V c 0 t : Vec Ideal S2000x128 .f32) (ix2 r k) = (V c main_v56 : S50000x128.Idx → Elt Ideal .f32) (ix2 p k) := by
  obtain ⟨e00, e01, -⟩ := idx4 t
  unfold iblk4
  rw [View.read_apply]
  show V c main_v56 _ = V c main_v56 _
  refine congrArg (V c main_v56) ?_
  funext a
  apply Fin.ext
  match a with
  | ⟨0, _⟩ => show win4_0.index t (0 : Fin 2) * 2000 + 1 * r.val = p.val; omega
  | ⟨1, _⟩ => show win4_0.index t (1 : Fin 2) * 128 + 1 * k.val = k.val; omega

/-- The weight block at any point is the weight matrix. -/
theorem iblk4_1_apply (c : Dev nD) (t : Fin cfg4.N) (k : Fin 128) (q : Fin 128) :
    (iblk4 V c 1 t : Vec Ideal S128x128 .f32) (ix2 k q) = (V c main_arg8 : S128x128.Idx → Elt Ideal .f32) (ix2 k q) := by
  obtain ⟨-, -, e10, e11, -⟩ := idx4 t
  unfold iblk4
  rw [View.read_apply]
  show V c main_arg8 _ = V c main_arg8 _
  refine congrArg (V c main_arg8) ?_
  funext a
  apply Fin.ext
  match a with
  | ⟨0, _⟩ => show win4_1.index t (0 : Fin 2) * 128 + 1 * k.val = k.val; omega
  | ⟨1, _⟩ => show win4_1.index t (1 : Fin 2) * 128 + 1 * q.val = q.val; omega

/-- What point t writes back is block t of the product of the whole arrays. -/
theorem flushed4 (c : Dev nD) (t : Fin cfg4.N) :
    (dat4 V c).flushed 2 t
      = ((cfg4.win 2).blk t).view.read (Elt Ideal) (Cert.Net.dense (F := Ideal) (V c main_v56) (V c main_arg8)) := by
  obtain ⟨-, -, -, -, e20, e21⟩ := idx4 t
  have hN : cfg4.N = 25 := N_4
  have htl : t.val < 25 := hN ▸ t.isLt
  show (cfg4.win 2).cut (grid4.coords t) ((dat4 V c).after 2 t) = _
  rw [after4_2]
  unfold out4_2
  rw [View.canon_unit_zero hz2]
  simp only [View.ld_unit_zero (S := S2000x128) hz2, View.ld_unit_zero (S := S128x128) hz2]
  rw [k4_pay1_eq]
  refine block_ext _ _ fun r q => ?_
  have hp : t.val * 2000 + r.val < 50000 := by have := r.isLt; omega
  have he : ((cfg4.win 2).blk t).view.emb (ix2 r q) = ix2 (⟨t.val * 2000 + r.val, hp⟩ : Fin 50000) q := by
    funext a
    apply Fin.ext
    match a with
    | ⟨0, _⟩ => show win4_2.index t (0 : Fin 2) * 2000 + 1 * r.val = t.val * 2000 + r.val; omega
    | ⟨1, _⟩ => show win4_2.index t (1 : Fin 2) * 128 + 1 * q.val = q.val; omega
  show k0_pay1 (F := Ideal) (iblk4 V c 0 t) (iblk4 V c 1 t) (ix2 r q)
    = Cert.Net.dense (F := Ideal) (V c main_v56) (V c main_arg8) (((cfg4.win 2).blk t).view.emb (ix2 r q))
  rw [he]
  refine (k0_pay1_apply (iblk4 V c 0 t) (iblk4 V c 1 t) r q).trans ?_
  refine Eq.trans ?_ (Cert.Net.dense_apply (V c main_v56) (V c main_arg8) ⟨t.val * 2000 + r.val, hp⟩ q).symm
  refine Finset.sum_congr rfl fun k _ => ?_
  rw [iblk4_0_apply V c t r k ⟨t.val * 2000 + r.val, hp⟩ rfl, iblk4_1_apply V c t k q]

/-- An index of the result array is in point t's block when its row is among the block's 2000 rows. -/
theorem mem_blk4 (t : Fin cfg4.N) (i : S50000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v57).slice (win4_2.rect t)).set ↔ _
  rw [View.set_slice_whole, Rect.mem_set_unit]
  exact Iff.rfl

/-- Every row of the result is in the block of the point numbered by the row divided by 2000. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  have ht : (i 0).val / 2000 < cfg4.N := by rw [hN]; omega
  obtain ⟨-, -, -, -, e20, e21⟩ := idx4 ⟨(i 0).val / 2000, ht⟩
  refine ⟨⟨(i 0).val / 2000, ht⟩, flush4_2 _, ?_⟩
  rw [mem_blk4]
  intro a
  match a with
  | ⟨0, _⟩ =>
    show win4_2.index ⟨(i 0).val / 2000, ht⟩ (0 : Fin 2) * 2000 ≤ (i 0).val
      ∧ (i 0).val < win4_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win4_2.index ⟨(i 0).val / 2000, ht⟩ (1 : Fin 2) * 128 ≤ (i 1).val
      ∧ (i 1).val < win4_2.index ⟨(i 0).val / 2000, ht⟩ (1 : Fin 2) * 128 + 128
    rw [e21]; omega

/-- After the launch the result array holds the product of the arrays the launch found. -/
theorem region4 (c : Dev nD) :
    (dat4 V c).arrAt 2 cfg4.N = Cert.Net.dense (F := Ideal) (V c main_v56) (V c main_arg8) :=
  (dat4 V c).arrAt_eq_of_cover 2 _ (fun t _ => flushed4 V c t) (cover4)

end Cert.KernelIdeal.Whole

end
-- ==== Proof.Region5.lean ====
/-
  Kernel launch 5: a bias row added to every row of the aggregated features, 2000 rows at a time.

  Grid point t reads rows 2000·t … 2000·t + 1999 of the features and the whole bias vector, and writes back the
  same rows of the result.  Each entry depends only on the entry of the features at the same place and on the
  bias at its column, so every block written back is a block of one function of the whole arrays; the 25 blocks
  tile the 50000 rows.
-/
import proofs.«102977_j3367254360562_1_alg».proof.Proof.Gen.KernelIdeal.Frame
import proofs.«102977_j3367254360562_1_alg».proof.Proof.PayAt
import proofs.«102977_j3367254360562_1_alg».proof.Proof.NetAt
import proofs.«102977_j3367254360562_1_alg».proof.Proof.BlockExt
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Where each window's block sits at grid point t. -/
theorem idx5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- The feature block at point t, at (r, q): the array at row 2000·t + r. -/
theorem iblk5_0_apply (c : Dev nD) (t : Fin cfg5.N) (r : Fin 2000) (q : Fin 128) (p : Fin 50000)
    (hp : p.val = t.val * 2000 + r.val) :
    (iblk5 V c 0 t : Vec Ideal S2000x128 .f32) (ix2 r q) = (V c main_v70 : S50000x128.Idx → Elt Ideal .f32) (ix2 p q) := by
  obtain ⟨e00, e01, -⟩ := idx5 t
  unfold iblk5
  rw [View.read_apply]
  show V c main_v70 _ = V c main_v70 _
  refine congrArg (V c main_v70) ?_
  funext a
  apply Fin.ext
  match a with
  | ⟨0, _⟩ => show win5_0.index t (0 : Fin 2) * 2000 + 1 * r.val = p.val; omega
  | ⟨1, _⟩ => show win5_0.index t (1 : Fin 2) * 128 + 1 * q.val = q.val; omega

/-- The bias block at any point is the bias vector. -/
theorem iblk5_1_apply (c : Dev nD) (t : Fin cfg5.N) (q : Fin 128) :
    (iblk5 V c 1 t : Vec Ideal S128 .f32) (ix1 q) = (V c main_arg9 : S128.Idx → Elt Ideal .f32) (ix1 q) := by
  obtain ⟨-, -, e10, -⟩ := idx5 t
  unfold iblk5
  rw [View.read_apply]
  show V c main_arg9 _ = V c main_arg9 _
  refine congrArg (V c main_arg9) ?_
  funext a
  apply Fin.ext
  match a with
  | ⟨0, _⟩ => show win5_1.index t (0 : Fin 1) * 128 + 1 * q.val = q.val; omega

/-- The result as one function of the whole arrays. -/
abbrev G5 (a : (⟨Cert.ReferenceIdeal.S50000x128, .f32⟩ : BufTy).Contents (Elt Ideal))
    (b : (⟨Cert.ReferenceIdeal.S128, .f32⟩ : BufTy).Contents (Elt Ideal)) :
    (⟨Cert.ReferenceIdeal.S50000x128, .f32⟩ : BufTy).Contents (Elt Ideal) :=
  Cert.Net.addBias (F := Ideal) a b

/-- What point t writes back is block t of that function of the whole arrays. -/
theorem flushed5 (c : Dev nD) (t : Fin cfg5.N) :
    (dat5 V c).flushed 2 t = ((cfg5.win 2).blk t).view.read (Elt Ideal) (G5 (V c main_v70) (V c main_arg9)) := by
  obtain ⟨-, -, -, e20, e21⟩ := idx5 t
  have hN : cfg5.N = 25 := N_5
  have htl : t.val < 25 := hN ▸ t.isLt
  show (cfg5.win 2).cut (grid5.coords t) ((dat5 V c).after 2 t) = _
  rw [after5_2]
  unfold out5_2
  rw [View.canon_unit_zero hz2]
  simp only [View.ld_unit_zero (S := S2000x128) hz2, View.ld_unit_zero (S := S128) hz1]
  refine block_ext _ _ fun r q => ?_
  have hp : t.val * 2000 + r.val < 50000 := by have := r.isLt; omega
  have he : ((cfg5.win 2).blk t).view.emb (ix2 r q) = ix2 (⟨t.val * 2000 + r.val, hp⟩ : Fin 50000) q := by
    funext a
    apply Fin.ext
    match a with
    | ⟨0, _⟩ => show win5_2.index t (0 : Fin 2) * 2000 + 1 * r.val = t.val * 2000 + r.val; omega
    | ⟨1, _⟩ => show win5_2.index t (1 : Fin 2) * 128 + 1 * q.val = q.val; omega
  show k5_pay1 (F := Ideal) (iblk5 V c 0 t) (iblk5 V c 1 t) (ix2 r q)
    = G5 (V c main_v70) (V c main_arg9) (((cfg5.win 2).blk t).view.emb (ix2 r q))
  rw [he]
  refine (k5_pay1_apply (iblk5 V c 0 t) (iblk5 V c 1 t) r q).trans ?_
  refine Eq.trans ?_ (Cert.Net.addBias_apply (V c main_v70) (V c main_arg9) ⟨t.val * 2000 + r.val, hp⟩ q).symm
  rw [iblk5_0_apply V c t r q ⟨t.val * 2000 + r.val, hp⟩ rfl, iblk5_1_apply V c t q]

/-- An index of the result array is in point t's block when its row is among the block's 2000 rows. -/
theorem mem_blk5 (t : Fin cfg5.N) (i : S50000x128.Idx) :
    i ∈ ((cfg5.win 2).blk t).view.set ↔ ∀ a : Fin 2, win5_2.index t a * S2000x128.size a ≤ (i a).val
      ∧ (i a).val < win5_2.index t a * S2000x128.size a + S2000x128.size a := by
  show i ∈ ((View.whole main_v71).slice (win5_2.rect t)).set ↔ _
  rw [View.set_slice_whole, Rect.mem_set_unit]
  exact Iff.rfl

/-- Every row of the result is in the block of the point numbered by the row divided by 2000. -/
theorem cover5 (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 25 := N_5
  have ht : (i 0).val / 2000 < cfg5.N := by rw [hN]; omega
  obtain ⟨-, -, -, e20, e21⟩ := idx5 ⟨(i 0).val / 2000, ht⟩
  refine ⟨⟨(i 0).val / 2000, ht⟩, flush5_2 _, ?_⟩
  rw [mem_blk5]
  intro a
  match a with
  | ⟨0, _⟩ =>
    show win5_2.index ⟨(i 0).val / 2000, ht⟩ (0 : Fin 2) * 2000 ≤ (i 0).val
      ∧ (i 0).val < win5_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win5_2.index ⟨(i 0).val / 2000, ht⟩ (1 : Fin 2) * 128 ≤ (i 1).val
      ∧ (i 1).val < win5_2.index ⟨(i 0).val / 2000, ht⟩ (1 : Fin 2) * 128 + 128
    rw [e21]; omega

/-- After the launch the result array holds that function of the arrays the launch found. -/
theorem region5 (c : Dev nD) :
    (dat5 V c).arrAt 2 cfg5.N = G5 (V c main_v70) (V c main_arg9) :=
  (dat5 V c).arrAt_eq_of_cover 2 _ (fun t _ => flushed5 V c t) (cover5)

end Cert.KernelIdeal.Whole

end
-- ==== Proof.Walk.lean ====
/-
  The kernel program's two results as the network of its inputs.

  The chain of buffer contents from launch to return is walked once.  The first stretches of host operations
  compute, from the endpoint table and the edge weights, the source and target node of every edge and the edges'
  normalisation; no later operation or launch writes those three buffers, nor any argument, so each later stretch
  finds them as they were.  Each layer is then: a launch that leaves the product of the current node features
  with the layer's weights; a stretch that gathers the product's rows at the edges' sources, scales them by the
  normalisation and scatter-adds them at the edges' targets; a launch that adds the bias (and, in the first two
  layers, takes the maximum with zero).  The last stretch scatter-adds the third layer's rows at their group.
  Composed, these are the definitions of the network.
-/
import proofs.«102977_j3367254360562_1_alg».proof.Proof.Gen.KernelIdeal.Frame
import proofs.«102977_j3367254360562_1_alg».proof.Proof.Gen.ReferenceIdeal
import proofs.«102977_j3367254360562_1_alg».proof.Proof.Net
import proofs.«102977_j3367254360562_1_alg».proof.Proof.Region0
import proofs.«102977_j3367254360562_1_alg».proof.Proof.Region1
import proofs.«102977_j3367254360562_1_alg».proof.Proof.Region2
import proofs.«102977_j3367254360562_1_alg».proof.Proof.Region3
import proofs.«102977_j3367254360562_1_alg».proof.Proof.Region4
import proofs.«102977_j3367254360562_1_alg».proof.Proof.Region5
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Closes "this stretch of host operations leaves the buffer as it found it": none of its operations writes it. -/
macro "host_keeps" : tactic => `(tactic|
  exact StableHlo.after_of_forall_not_mem _ _ (List.forall_iff_forall_mem.mp (by
    simp only [hostOps0, hostOps0_1, hostOps0_2, hostOps1, hostOps3, hostOps5, hostOps6, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-! ## The inputs, named -/

/-- The node features, the endpoint table, the group of every node, the edge weights, and the three layers' weights and biases, as launched. -/
abbrev gx : (⟨Cert.ReferenceIdeal.S50000x128, .f32⟩ : BufTy).Contents (Elt Ideal) := (m ((c : Thread nD τ).loc main_arg0))
abbrev ei : (⟨Cert.ReferenceIdeal.S2x800000, .i32⟩ : BufTy).Contents (Elt Ideal) := (m ((c : Thread nD τ).loc main_arg1))
abbrev grp : (⟨Cert.ReferenceIdeal.S50000, .i32⟩ : BufTy).Contents (Elt Ideal) := (m ((c : Thread nD τ).loc main_arg2))
abbrev ea : (⟨Cert.ReferenceIdeal.S800000, .f32⟩ : BufTy).Contents (Elt Ideal) := (m ((c : Thread nD τ).loc main_arg3))
abbrev w1 : (⟨Cert.ReferenceIdeal.S128x128, .f32⟩ : BufTy).Contents (Elt Ideal) := (m ((c : Thread nD τ).loc main_arg4))
abbrev b1 : (⟨Cert.ReferenceIdeal.S128, .f32⟩ : BufTy).Contents (Elt Ideal) := (m ((c : Thread nD τ).loc main_arg5))
abbrev w2 : (⟨Cert.ReferenceIdeal.S128x128, .f32⟩ : BufTy).Contents (Elt Ideal) := (m ((c : Thread nD τ).loc main_arg6))
abbrev b2 : (⟨Cert.ReferenceIdeal.S128, .f32⟩ : BufTy).Contents (Elt Ideal) := (m ((c : Thread nD τ).loc main_arg7))
abbrev w3 : (⟨Cert.ReferenceIdeal.S128x128, .f32⟩ : BufTy).Contents (Elt Ideal) := (m ((c : Thread nD τ).loc main_arg8))
abbrev b3 : (⟨Cert.ReferenceIdeal.S128, .f32⟩ : BufTy).Contents (Elt Ideal) := (m ((c : Thread nD τ).loc main_arg9))

/-! ## Arguments stay as launched -/

/-- Argument 0 is still as launched at boundary 3. -/
theorem arg0_at3 : W3 m ρ c (Proc.devRef .tc main_arg0) = (m ((c : Thread nD τ).loc main_arg0)) :=
  ((show W3 m ρ c (Proc.devRef .tc main_arg0) = W2 m ρ c (Proc.devRef .tc main_arg0) by host_keeps).trans ((show W2 m ρ c (Proc.devRef .tc main_arg0) = W1 m ρ c (Proc.devRef .tc main_arg0) by host_keeps).trans (show W1 m ρ c (Proc.devRef .tc main_arg0) = W0 m ρ c (Proc.devRef .tc main_arg0) by host_keeps)))

/-- Argument 4 is still as launched at boundary 3. -/
theorem arg4_at3 : W3 m ρ c (Proc.devRef .tc main_arg4) = (m ((c : Thread nD τ).loc main_arg4)) :=
  ((show W3 m ρ c (Proc.devRef .tc main_arg4) = W2 m ρ c (Proc.devRef .tc main_arg4) by host_keeps).trans ((show W2 m ρ c (Proc.devRef .tc main_arg4) = W1 m ρ c (Proc.devRef .tc main_arg4) by host_keeps).trans (show W1 m ρ c (Proc.devRef .tc main_arg4) = W0 m ρ c (Proc.devRef .tc main_arg4) by host_keeps)))

/-- Argument 5 is still as launched at boundary 5. -/
theorem arg5_at5 : W5 m ρ c (Proc.devRef .tc main_arg5) = (m ((c : Thread nD τ).loc main_arg5)) :=
  ((show W5 m ρ c (Proc.devRef .tc main_arg5) = W4 m ρ c (Proc.devRef .tc main_arg5) by host_keeps).trans ((W4_of_ne m ρ c main_arg5 (by decide)).trans ((show W3 m ρ c (Proc.devRef .tc main_arg5) = W2 m ρ c (Proc.devRef .tc main_arg5) by host_keeps).trans ((show W2 m ρ c (Proc.devRef .tc main_arg5) = W1 m ρ c (Proc.devRef .tc main_arg5) by host_keeps).trans (show W1 m ρ c (Proc.devRef .tc main_arg5) = W0 m ρ c (Proc.devRef .tc main_arg5) by host_keeps)))))

/-- Argument 6 is still as launched at boundary 6. -/
theorem arg6_at6 : W6 m ρ c (Proc.devRef .tc main_arg6) = (m ((c : Thread nD τ).loc main_arg6)) :=
  ((W6_of_ne m ρ c main_arg6 (by decide)).trans ((show W5 m ρ c (Proc.devRef .tc main_arg6) = W4 m ρ c (Proc.devRef .tc main_arg6) by host_keeps).trans ((W4_of_ne m ρ c main_arg6 (by decide)).trans ((show W3 m ρ c (Proc.devRef .tc main_arg6) = W2 m ρ c (Proc.devRef .tc main_arg6) by host_keeps).trans ((show W2 m ρ c (Proc.devRef .tc main_arg6) = W1 m ρ c (Proc.devRef .tc main_arg6) by host_keeps).trans (show W1 m ρ c (Proc.devRef .tc main_arg6) = W0 m ρ c (Proc.devRef .tc main_arg6) by host_keeps))))))

/-- Argument 7 is still as launched at boundary 8. -/
theorem arg7_at8 : W8 m ρ c (Proc.devRef .tc main_arg7) = (m ((c : Thread nD τ).loc main_arg7)) :=
  ((show W8 m ρ c (Proc.devRef .tc main_arg7) = W7 m ρ c (Proc.devRef .tc main_arg7) by host_keeps).trans ((W7_of_ne m ρ c main_arg7 (by decide)).trans ((W6_of_ne m ρ c main_arg7 (by decide)).trans ((show W5 m ρ c (Proc.devRef .tc main_arg7) = W4 m ρ c (Proc.devRef .tc main_arg7) by host_keeps).trans ((W4_of_ne m ρ c main_arg7 (by decide)).trans ((show W3 m ρ c (Proc.devRef .tc main_arg7) = W2 m ρ c (Proc.devRef .tc main_arg7) by host_keeps).trans ((show W2 m ρ c (Proc.devRef .tc main_arg7) = W1 m ρ c (Proc.devRef .tc main_arg7) by host_keeps).trans (show W1 m ρ c (Proc.devRef .tc main_arg7) = W0 m ρ c (Proc.devRef .tc main_arg7) by host_keeps))))))))

/-- Argument 8 is still as launched at boundary 9. -/
theorem arg8_at9 : W9 m ρ c (Proc.devRef .tc main_arg8) = (m ((c : Thread nD τ).loc main_arg8)) :=
  ((W9_of_ne m ρ c main_arg8 (by decide)).trans ((show W8 m ρ c (Proc.devRef .tc main_arg8) = W7 m ρ c (Proc.devRef .tc main_arg8) by host_keeps).trans ((W7_of_ne m ρ c main_arg8 (by decide)).trans ((W6_of_ne m ρ c main_arg8 (by decide)).trans ((show W5 m ρ c (Proc.devRef .tc main_arg8) = W4 m ρ c (Proc.devRef .tc main_arg8) by host_keeps).trans ((W4_of_ne m ρ c main_arg8 (by decide)).trans ((show W3 m ρ c (Proc.devRef .tc main_arg8) = W2 m ρ c (Proc.devRef .tc main_arg8) by host_keeps).trans ((show W2 m ρ c (Proc.devRef .tc main_arg8) = W1 m ρ c (Proc.devRef .tc main_arg8) by host_keeps).trans (show W1 m ρ c (Proc.devRef .tc main_arg8) = W0 m ρ c (Proc.devRef .tc main_arg8) by host_keeps)))))))))

/-- Argument 9 is still as launched at boundary 11. -/
theorem arg9_at11 : W11 m ρ c (Proc.devRef .tc main_arg9) = (m ((c : Thread nD τ).loc main_arg9)) :=
  ((show W11 m ρ c (Proc.devRef .tc main_arg9) = W10 m ρ c (Proc.devRef .tc main_arg9) by host_keeps).trans ((W10_of_ne m ρ c main_arg9 (by decide)).trans ((W9_of_ne m ρ c main_arg9 (by decide)).trans ((show W8 m ρ c (Proc.devRef .tc main_arg9) = W7 m ρ c (Proc.devRef .tc main_arg9) by host_keeps).trans ((W7_of_ne m ρ c main_arg9 (by decide)).trans ((W6_of_ne m ρ c main_arg9 (by decide)).trans ((show W5 m ρ c (Proc.devRef .tc main_arg9) = W4 m ρ c (Proc.devRef .tc main_arg9) by host_keeps).trans ((W4_of_ne m ρ c main_arg9 (by decide)).trans ((show W3 m ρ c (Proc.devRef .tc main_arg9) = W2 m ρ c (Proc.devRef .tc main_arg9) by host_keeps).trans ((show W2 m ρ c (Proc.devRef .tc main_arg9) = W1 m ρ c (Proc.devRef .tc main_arg9) by host_keeps).trans (show W1 m ρ c (Proc.devRef .tc main_arg9) = W0 m ρ c (Proc.devRef .tc main_arg9) by host_keeps)))))))))))

/-- Argument 2 is still as launched at boundary 12. -/
theorem arg2_at12 : W12 m ρ c (Proc.devRef .tc main_arg2) = (m ((c : Thread nD τ).loc main_arg2)) :=
  ((W12_of_ne m ρ c main_arg2 (by decide)).trans ((show W11 m ρ c (Proc.devRef .tc main_arg2) = W10 m ρ c (Proc.devRef .tc main_arg2) by host_keeps).trans ((W10_of_ne m ρ c main_arg2 (by decide)).trans ((W9_of_ne m ρ c main_arg2 (by decide)).trans ((show W8 m ρ c (Proc.devRef .tc main_arg2) = W7 m ρ c (Proc.devRef .tc main_arg2) by host_keeps).trans ((W7_of_ne m ρ c main_arg2 (by decide)).trans ((W6_of_ne m ρ c main_arg2 (by decide)).trans ((show W5 m ρ c (Proc.devRef .tc main_arg2) = W4 m ρ c (Proc.devRef .tc main_arg2) by host_keeps).trans ((W4_of_ne m ρ c main_arg2 (by decide)).trans ((show W3 m ρ c (Proc.devRef .tc main_arg2) = W2 m ρ c (Proc.devRef .tc main_arg2) by host_keeps).trans ((show W2 m ρ c (Proc.devRef .tc main_arg2) = W1 m ρ c (Proc.devRef .tc main_arg2) by host_keeps).trans (show W1 m ρ c (Proc.devRef .tc main_arg2) = W0 m ρ c (Proc.devRef .tc main_arg2) by host_keeps))))))))))))

/-! ## The graph's data, computed before the first launch, and kept -/

/-- The edges' sources. -/
theorem row_at3 : W3 m ρ c (Proc.devRef .tc main_v1) = Cert.Net.rowV (F := Ideal) (ei m c) := by
  show StableHlo.after hostOps0_2 (StableHlo.after hostOps0_1 (StableHlo.after hostOps0 (W0 m ρ c))) (Proc.devRef .tc main_v1) = _
  simp only [hostOps0, hostOps0_1, hostOps0_2]
  after_results
  all_goals rfl

/-- The edges' targets. -/
theorem col_at3 : W3 m ρ c (Proc.devRef .tc main_v3) = Cert.Net.colV (F := Ideal) (ei m c) := by
  show StableHlo.after hostOps0_2 (StableHlo.after hostOps0_1 (StableHlo.after hostOps0 (W0 m ρ c))) (Proc.devRef .tc main_v3) = _
  simp only [hostOps0, hostOps0_1, hostOps0_2]
  after_results
  all_goals rfl

/-- The normalisation from the inverse square-root degrees, the endpoints and the weights. -/
def normWith (d : (⟨Cert.ReferenceIdeal.S50000, .f32⟩ : BufTy).Contents (Elt Ideal)) (row col : (⟨Cert.ReferenceIdeal.S800000, .i32⟩ : BufTy).Contents (Elt Ideal))
    (wt : (⟨Cert.ReferenceIdeal.S800000, .f32⟩ : BufTy).Contents (Elt Ideal)) : (⟨Cert.ReferenceIdeal.S800000, .f32⟩ : BufTy).Contents (Elt Ideal) :=
  mulf (F := Ideal) (φ := .f32)
    (mulf (F := Ideal) (φ := .f32)
      (Host.gather (α := Ideal .f32) Cert.ReferenceIdeal.gather_S50000_S800000x1_S800000_n_0_n_n_0_1_1 d
        (Cert.Net.idxCol (F := Ideal) (Cert.Net.wrap (F := Ideal) row))) wt)
    (Host.gather (α := Ideal .f32) Cert.ReferenceIdeal.gather_S50000_S800000x1_S800000_n_0_n_n_0_1_1 d
      (Cert.Net.idxCol (F := Ideal) (Cert.Net.wrap (F := Ideal) col)))

/-- The first stretch leaves "the degree is positive" … -/
theorem pos_at1 : W1 m ρ c (Proc.devRef .tc main_v8)
    = cmpf (F := Ideal) (φ := .f32) .ogt (Cert.Net.deg (F := Ideal) (ei m c) (ea m c))
        (broadcastInDim Cert.ReferenceIdeal.S50000 ![] Cert.ReferenceIdeal.Facts₀.bcast_S_S50000 (constant Cert.ReferenceIdeal.S_ .f32 0x00000000#32)) := by
  show StableHlo.after hostOps0 (W0 m ρ c) (Proc.devRef .tc main_v8) = _
  simp only [hostOps0]
  after_results
  all_goals rfl

/-- … the degree's inverse square root … -/
theorem rsqrt_at1 : W1 m ρ c (Proc.devRef .tc main_v9) = Host.rsqrt (F := Ideal) (φ := .f32) (Cert.Net.deg (F := Ideal) (ei m c) (ea m c)) := by
  show StableHlo.after hostOps0 (W0 m ρ c) (Proc.devRef .tc main_v9) = _
  simp only [hostOps0]
  after_results
  all_goals rfl

/-- … and a zero. -/
theorem zero_at1 : W1 m ρ c (Proc.devRef .tc main_cst_1) = constant (F := Ideal) Cert.ReferenceIdeal.S_ .f32 0x00000000#32 := by
  show StableHlo.after hostOps0 (W0 m ρ c) (Proc.devRef .tc main_cst_1) = _
  simp only [hostOps0]
  after_results
  all_goals rfl

/-- The choice between them, from whatever the three buffers hold. -/
theorem where_step (X : Valuation τ sig (Elt Ideal)) :
    StableHlo.after hostOps0_1 X (Proc.devRef .tc main_v10)
      = select (α := Ideal .f32) (X (Proc.devRef .tc main_v8)) (X (Proc.devRef .tc main_v9))
          (broadcastInDim Cert.ReferenceIdeal.S50000 ![] Cert.ReferenceIdeal.Facts₀.bcast_S_S50000 (id (X (Proc.devRef .tc main_cst_1)))) := by
  simp only [hostOps0_1]
  after_results
  all_goals rfl

/-- The inverse square-root degrees. -/
theorem dinv_at2 : W2 m ρ c (Proc.devRef .tc main_v10) = Cert.Net.dinv (F := Ideal) (ei m c) (ea m c) := by
  refine (where_step (W1 m ρ c)).trans ?_
  rw [pos_at1, rsqrt_at1, zero_at1]
  rfl

/-- The normalisation, from whatever the four buffers hold. -/
theorem norm_step (X : Valuation τ sig (Elt Ideal)) :
    StableHlo.after hostOps0_2 X (Proc.devRef .tc main_v26)
      = normWith (X (Proc.devRef .tc main_v10)) (X (Proc.devRef .tc main_v1)) (X (Proc.devRef .tc main_v3))
          (X (Proc.devRef .tc main_arg3)) := by
  simp only [hostOps0_2]
  after_results_simp <;> rfl

/-- Argument 3 is still as launched at boundary 2. -/
theorem arg3_at2 : W2 m ρ c (Proc.devRef .tc main_arg3) = (m ((c : Thread nD τ).loc main_arg3)) :=
  ((show W2 m ρ c (Proc.devRef .tc main_arg3) = W1 m ρ c (Proc.devRef .tc main_arg3) by host_keeps).trans (show W1 m ρ c (Proc.devRef .tc main_arg3) = W0 m ρ c (Proc.devRef .tc main_arg3) by host_keeps))

/-- The edges' sources and targets before the normalisation's stretch. -/
theorem row_at2 : W2 m ρ c (Proc.devRef .tc main_v1) = Cert.Net.rowV (F := Ideal) (ei m c) := by
  show StableHlo.after hostOps0_1 (StableHlo.after hostOps0 (W0 m ρ c)) (Proc.devRef .tc main_v1) = _
  simp only [hostOps0, hostOps0_1]
  after_results
  all_goals rfl
theorem col_at2 : W2 m ρ c (Proc.devRef .tc main_v3) = Cert.Net.colV (F := Ideal) (ei m c) := by
  show StableHlo.after hostOps0_1 (StableHlo.after hostOps0 (W0 m ρ c)) (Proc.devRef .tc main_v3) = _
  simp only [hostOps0, hostOps0_1]
  after_results
  all_goals rfl

/-- The edges' normalisation. -/
theorem norm_at3 : W3 m ρ c (Proc.devRef .tc main_v26) = Cert.Net.norm (F := Ideal) (ei m c) (ea m c) := by
  refine (norm_step (W2 m ρ c)).trans ?_
  rw [dinv_at2, row_at2, col_at2, arg3_at2]
  rfl

theorem v1_at4 : W4 m ρ c (Proc.devRef .tc main_v1) = W3 m ρ c (Proc.devRef .tc main_v1) :=
  (W4_of_ne m ρ c main_v1 (by decide))

theorem v3_at4 : W4 m ρ c (Proc.devRef .tc main_v3) = W3 m ρ c (Proc.devRef .tc main_v3) :=
  (W4_of_ne m ρ c main_v3 (by decide))

theorem v26_at4 : W4 m ρ c (Proc.devRef .tc main_v26) = W3 m ρ c (Proc.devRef .tc main_v26) :=
  (W4_of_ne m ρ c main_v26 (by decide))

theorem v1_at7 : W7 m ρ c (Proc.devRef .tc main_v1) = W3 m ρ c (Proc.devRef .tc main_v1) :=
  ((W7_of_ne m ρ c main_v1 (by decide)).trans ((W6_of_ne m ρ c main_v1 (by decide)).trans ((show W5 m ρ c (Proc.devRef .tc main_v1) = W4 m ρ c (Proc.devRef .tc main_v1) by host_keeps).trans (W4_of_ne m ρ c main_v1 (by decide)))))

theorem v3_at7 : W7 m ρ c (Proc.devRef .tc main_v3) = W3 m ρ c (Proc.devRef .tc main_v3) :=
  ((W7_of_ne m ρ c main_v3 (by decide)).trans ((W6_of_ne m ρ c main_v3 (by decide)).trans ((show W5 m ρ c (Proc.devRef .tc main_v3) = W4 m ρ c (Proc.devRef .tc main_v3) by host_keeps).trans (W4_of_ne m ρ c main_v3 (by decide)))))

theorem v26_at7 : W7 m ρ c (Proc.devRef .tc main_v26) = W3 m ρ c (Proc.devRef .tc main_v26) :=
  ((W7_of_ne m ρ c main_v26 (by decide)).trans ((W6_of_ne m ρ c main_v26 (by decide)).trans ((show W5 m ρ c (Proc.devRef .tc main_v26) = W4 m ρ c (Proc.devRef .tc main_v26) by host_keeps).trans (W4_of_ne m ρ c main_v26 (by decide)))))

theorem v1_at10 : W10 m ρ c (Proc.devRef .tc main_v1) = W3 m ρ c (Proc.devRef .tc main_v1) :=
  ((W10_of_ne m ρ c main_v1 (by decide)).trans ((W9_of_ne m ρ c main_v1 (by decide)).trans ((show W8 m ρ c (Proc.devRef .tc main_v1) = W7 m ρ c (Proc.devRef .tc main_v1) by host_keeps).trans ((W7_of_ne m ρ c main_v1 (by decide)).trans ((W6_of_ne m ρ c main_v1 (by decide)).trans ((show W5 m ρ c (Proc.devRef .tc main_v1) = W4 m ρ c (Proc.devRef .tc main_v1) by host_keeps).trans (W4_of_ne m ρ c main_v1 (by decide))))))))

theorem v3_at10 : W10 m ρ c (Proc.devRef .tc main_v3) = W3 m ρ c (Proc.devRef .tc main_v3) :=
  ((W10_of_ne m ρ c main_v3 (by decide)).trans ((W9_of_ne m ρ c main_v3 (by decide)).trans ((show W8 m ρ c (Proc.devRef .tc main_v3) = W7 m ρ c (Proc.devRef .tc main_v3) by host_keeps).trans ((W7_of_ne m ρ c main_v3 (by decide)).trans ((W6_of_ne m ρ c main_v3 (by decide)).trans ((show W5 m ρ c (Proc.devRef .tc main_v3) = W4 m ρ c (Proc.devRef .tc main_v3) by host_keeps).trans (W4_of_ne m ρ c main_v3 (by decide))))))))

theorem v26_at10 : W10 m ρ c (Proc.devRef .tc main_v26) = W3 m ρ c (Proc.devRef .tc main_v26) :=
  ((W10_of_ne m ρ c main_v26 (by decide)).trans ((W9_of_ne m ρ c main_v26 (by decide)).trans ((show W8 m ρ c (Proc.devRef .tc main_v26) = W7 m ρ c (Proc.devRef .tc main_v26) by host_keeps).trans ((W7_of_ne m ρ c main_v26 (by decide)).trans ((W6_of_ne m ρ c main_v26 (by decide)).trans ((show W5 m ρ c (Proc.devRef .tc main_v26) = W4 m ρ c (Proc.devRef .tc main_v26) by host_keeps).trans (W4_of_ne m ρ c main_v26 (by decide))))))))

/-! ## What each aggregating stretch leaves -/

set_option maxHeartbeats 4000000 in
/-- After the first product: its rows gathered, scaled and scatter-added. -/
theorem agg_at5 : V5 m ρ c main_v40 = Cert.Net.aggWith (F := Ideal) (W4 m ρ c (Proc.devRef .tc main_v27))
    (W4 m ρ c (Proc.devRef .tc main_v1)) (W4 m ρ c (Proc.devRef .tc main_v3)) (W4 m ρ c (Proc.devRef .tc main_v26)) := by
  show StableHlo.after hostOps1 (W4 m ρ c) (Proc.devRef .tc main_v40) = _
  simp only [hostOps1]
  after_results_simp <;> rfl

set_option maxHeartbeats 4000000 in
/-- After the second product. -/
theorem agg_at8 : V8 m ρ c main_v55 = Cert.Net.aggWith (F := Ideal) (W7 m ρ c (Proc.devRef .tc main_v42))
    (W7 m ρ c (Proc.devRef .tc main_v1)) (W7 m ρ c (Proc.devRef .tc main_v3)) (W7 m ρ c (Proc.devRef .tc main_v26)) := by
  show StableHlo.after hostOps3 (W7 m ρ c) (Proc.devRef .tc main_v55) = _
  simp only [hostOps3]
  after_results_simp <;> rfl

set_option maxHeartbeats 4000000 in
/-- After the third product. -/
theorem agg_at11 : V11 m ρ c main_v70 = Cert.Net.aggWith (F := Ideal) (W10 m ρ c (Proc.devRef .tc main_v57))
    (W10 m ρ c (Proc.devRef .tc main_v1)) (W10 m ρ c (Proc.devRef .tc main_v3)) (W10 m ρ c (Proc.devRef .tc main_v26)) := by
  show StableHlo.after hostOps5 (W10 m ρ c) (Proc.devRef .tc main_v70) = _
  simp only [hostOps5]
  after_results_simp <;> rfl

/-- The last stretch: the third layer's rows scatter-added at their groups. -/
theorem readout_at13 : W13 m ρ c (Proc.devRef .tc main_v74)
    = Cert.Net.readout (F := Ideal) (W12 m ρ c (Proc.devRef .tc main_v71)) (W12 m ρ c (Proc.devRef .tc main_arg2)) := by
  show StableHlo.after hostOps6 (W12 m ρ c) (Proc.devRef .tc main_v74) = _
  simp only [hostOps6]
  after_results
  all_goals rfl

/-! ## The layers -/

/-- The first layer's features with its activation. -/
abbrev h1 : (⟨Cert.ReferenceIdeal.S50000x128, .f32⟩ : BufTy).Contents (Elt Ideal) := Cert.Net.relu (F := Ideal) (Cert.Net.layer (gx m c) (w1 m c) (b1 m c) (ei m c) (ea m c))
/-- The second layer's. -/
abbrev h2 : (⟨Cert.ReferenceIdeal.S50000x128, .f32⟩ : BufTy).Contents (Elt Ideal) := Cert.Net.relu (F := Ideal) (Cert.Net.layer (h1 m c) (w2 m c) (b2 m c) (ei m c) (ea m c))

/-- The first launch leaves the first product. -/
theorem prod1 : W4 m ρ c (Proc.devRef .tc main_v27) = Cert.Net.dense (F := Ideal) (gx m c) (w1 m c) := by
  refine ((W4_arr m ρ c 2).trans (region0 (V3 m ρ) c)).trans ?_
  show Cert.Net.dense (F := Ideal) (W3 m ρ c (Proc.devRef .tc main_arg0)) (W3 m ρ c (Proc.devRef .tc main_arg4)) = _
  rw [arg0_at3, arg4_at3]

/-- The first aggregation. -/
theorem agg1 : V5 m ρ c main_v40 = Cert.Net.agg (F := Ideal) (Cert.Net.dense (gx m c) (w1 m c)) (ei m c) (ea m c) := by
  rw [agg_at5, prod1, v1_at4, v3_at4, v26_at4, row_at3, col_at3, norm_at3]
  rfl

/-- The second launch leaves the first layer's features. -/
theorem feat1 : V6 m ρ c main_v41 = h1 m c := by
  refine ((W6_arr m ρ c 2).trans (region1 (V5 m ρ) c)).trans ?_
  show Cert.Net.relu (F := Ideal) (Cert.Net.addBias (V5 m ρ c main_v40) (W5 m ρ c (Proc.devRef .tc main_arg5))) = _
  rw [agg1, arg5_at5]
  rfl

/-- The third launch leaves the second product. -/
theorem prod2 : W7 m ρ c (Proc.devRef .tc main_v42) = Cert.Net.dense (F := Ideal) (h1 m c) (w2 m c) := by
  refine ((W7_arr m ρ c 2).trans (region2 (V6 m ρ) c)).trans ?_
  show Cert.Net.dense (F := Ideal) (V6 m ρ c main_v41) (W6 m ρ c (Proc.devRef .tc main_arg6)) = _
  rw [feat1, arg6_at6]

/-- The second aggregation. -/
theorem agg2 : V8 m ρ c main_v55 = Cert.Net.agg (F := Ideal) (Cert.Net.dense (h1 m c) (w2 m c)) (ei m c) (ea m c) := by
  rw [agg_at8, prod2, v1_at7, v3_at7, v26_at7, row_at3, col_at3, norm_at3]
  rfl

/-- The fourth launch leaves the second layer's features. -/
theorem feat2 : V9 m ρ c main_v56 = h2 m c := by
  refine ((W9_arr m ρ c 2).trans (region3 (V8 m ρ) c)).trans ?_
  show Cert.Net.relu (F := Ideal) (Cert.Net.addBias (V8 m ρ c main_v55) (W8 m ρ c (Proc.devRef .tc main_arg7))) = _
  rw [agg2, arg7_at8]
  rfl

/-- The fifth launch leaves the third product. -/
theorem prod3 : W10 m ρ c (Proc.devRef .tc main_v57) = Cert.Net.dense (F := Ideal) (h2 m c) (w3 m c) := by
  refine ((W10_arr m ρ c 2).trans (region4 (V9 m ρ) c)).trans ?_
  show Cert.Net.dense (F := Ideal) (V9 m ρ c main_v56) (W9 m ρ c (Proc.devRef .tc main_arg8)) = _
  rw [feat2, arg8_at9]

/-- The third aggregation. -/
theorem agg3 : V11 m ρ c main_v70 = Cert.Net.agg (F := Ideal) (Cert.Net.dense (h2 m c) (w3 m c)) (ei m c) (ea m c) := by
  rw [agg_at11, prod3, v1_at10, v3_at10, v26_at10, row_at3, col_at3, norm_at3]
  rfl

/-- The sixth launch leaves the network's node features. -/
theorem feat3 : W12 m ρ c (Proc.devRef .tc main_v71)
    = Cert.Net.nodeOut (F := Ideal) (gx m c) (ei m c) (ea m c) (w1 m c) (b1 m c) (w2 m c) (b2 m c) (w3 m c) (b3 m c) := by
  refine ((W12_arr m ρ c 2).trans (region5 (V11 m ρ) c)).trans ?_
  show Cert.Net.addBias (F := Ideal) (V11 m ρ c main_v70) (W11 m ρ c (Proc.devRef .tc main_arg9)) = _
  rw [agg3, arg9_at11]
  rfl

/-! ## The two results -/

/-- The first result: the network's node features of the inputs. -/
theorem result0 : W13 m ρ c (Proc.devRef .tc main_v71)
    = Cert.Net.nodeOut (F := Ideal) (gx m c) (ei m c) (ea m c) (w1 m c) (b1 m c) (w2 m c) (b2 m c) (w3 m c) (b3 m c) :=
  (show W13 m ρ c (Proc.devRef .tc main_v71) = W12 m ρ c (Proc.devRef .tc main_v71) by host_keeps).trans (feat3 m ρ c)

/-- The second result: those features summed within each group. -/
theorem result1 : W13 m ρ c (Proc.devRef .tc main_v74)
    = Cert.Net.readout (F := Ideal)
        (Cert.Net.nodeOut (F := Ideal) (gx m c) (ei m c) (ea m c) (w1 m c) (b1 m c) (w2 m c) (b2 m c) (w3 m c) (b3 m c)) (grp m c) := by
  rw [readout_at13, feat3, arg2_at12]

end Cert.KernelIdeal.Whole

end
-- ==== Proof.RefIs.lean ====
/-
  The reference's two results are the network's node features and their per-group sums: its printed operations,
  composed, are the definitions of the network spelt out.
-/
import proofs.«102977_j3367254360562_1_alg».proof.Proof.Net
import proofs.«102977_j3367254360562_1_alg».proof.Proof.Gen.ReferenceIdeal.Run

set_option maxRecDepth 16384

noncomputable section

namespace Cert.Net

open Cert.ReferenceIdeal Cert.ReferenceIdeal.Gen Idealize.ShloMosaic Idealize.ShloMosaic.TcCoe Idealize.SL.Sem

variable {F : FTy → Type} [FloatOps F]

/-- The network's node features of the launch contents of a memory's argument buffers. -/
abbrev nodeOutOf (m : (ℓ : Loc nD τ sig) → Buf (Elt F) ℓ) (c : Dev nD) : (⟨S50000x128, .f32⟩ : BufTy).Contents (Elt F) :=
  nodeOut (m ((c.tc : Thread nD τ).loc main_arg0)) (m ((c.tc : Thread nD τ).loc main_arg1)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

/-- The reference's first result. -/
theorem ref_nodeOut (m : (ℓ : Loc nD τ sig) → Buf (Elt F) ℓ) (c : Dev nD) :
    Cert.ReferenceIdeal.Value.res_main_v125 (F := F) m c = nodeOutOf m c := by
  unfold Cert.ReferenceIdeal.Value.res_main_v125
  rfl

/-- The reference's second result. -/
theorem ref_readout (m : (ℓ : Loc nD τ sig) → Buf (Elt F) ℓ) (c : Dev nD) :
    Cert.ReferenceIdeal.Value.res_main_v128 (F := F) m c = readout (nodeOutOf m c) (m ((c.tc : Thread nD τ).loc main_arg2)) := by
  unfold Cert.ReferenceIdeal.Value.res_main_v128
  rfl

end Cert.Net

end
-- ==== Proof.lean ====
/-
  A three-layer graph convolution and its per-group readout: the tiled kernel program against the plain one.

  Both programs compute, from node features, an edge list with weights, and three weight matrices with biases,
      h₁ = max(layer₁(x), 0),  h₂ = max(layer₂(h₁), 0),  h₃ = layer₃(h₂),   readout(g, ·) = Σ_{group(i) = g} h₃(i, ·),
  where layer(x)(i, ·) = Σ_{col(e) = i} norm(e) · (x · W)(row(e), ·) + b and norm(e) is the symmetric degree
  normalisation of edge e (Proof/Net.lean).  The kernel program computes the normalisation once and runs each
  product x · W and each bias step as a launch over 25 blocks of 2000 rows; the plain program recomputes the
  normalisation per layer and uses whole-array operations.  Over the extended reals a product's row block is the
  product of the row block, rounding the operands to a narrower format is the identity, and the bias steps act
  entry by entry, so each launch leaves exactly the whole-array operation's result (Proof/Region0 … Region5);
  the gathers and scatter-adds in between are the same operations in both programs.  No law of arithmetic beyond
  that is used, and the finiteness of the inputs is not needed.
-/
import proofs.«102977_j3367254360562_1_alg».proof.Defs
import proofs.«102977_j3367254360562_1_alg».proof.Proof.Gen.Kernel
import proofs.«102977_j3367254360562_1_alg».proof.Proof.Gen.Kernel.Frame
import proofs.«102977_j3367254360562_1_alg».proof.Proof.Gen.KernelIdeal
import proofs.«102977_j3367254360562_1_alg».proof.Proof.Gen.KernelIdeal.Frame
import proofs.«102977_j3367254360562_1_alg».proof.Proof.Gen.ReferenceIdeal
import proofs.«102977_j3367254360562_1_alg».proof.Proof.Gen.ReferenceIdeal.Run
import proofs.«102977_j3367254360562_1_alg».proof.Proof.Gen.Pre_finite_inputs
import proofs.«102977_j3367254360562_1_alg».proof.Proof.KRun
import proofs.«102977_j3367254360562_1_alg».proof.Proof.Walk
import proofs.«102977_j3367254360562_1_alg».proof.Proof.RefIs
import Idealize.ShloMosaic.Adequacy
import Idealize.ShloMosaic.Init

noncomputable section

namespace Cert.Proof

open Idealize.ShloMosaic Idealize.SL.Sem

/-- The kernel program as printed runs to the end without fault and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the plain program: its run names both results and every argument; the arguments' part is the frame. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing of the kernel program was rewritten to read it over the extended reals. -/
theorem preserves : Cert.preserves_Kernel_KernelIdeal := trivial

/-- From memories that agree on the arguments both programs end with the network's node features and their
    per-group sums of those arguments. -/
theorem algebraic : Cert.algebraic_KernelIdeal_ReferenceIdeal := by
  intro m ρ m' ρ' _ hagree
  refine ⟨fun c => Cert.Net.nodeOut (F := Ideal) (Cert.KernelIdeal.Whole.gx m c) (Cert.KernelIdeal.Whole.ei m c)
      (Cert.KernelIdeal.Whole.ea m c) (Cert.KernelIdeal.Whole.w1 m c) (Cert.KernelIdeal.Whole.b1 m c)
      (Cert.KernelIdeal.Whole.w2 m c) (Cert.KernelIdeal.Whole.b2 m c) (Cert.KernelIdeal.Whole.w3 m c)
      (Cert.KernelIdeal.Whole.b3 m c),
    fun c => Cert.Net.readout (F := Ideal) (Cert.Net.nodeOut (F := Ideal) (Cert.KernelIdeal.Whole.gx m c)
      (Cert.KernelIdeal.Whole.ei m c) (Cert.KernelIdeal.Whole.ea m c) (Cert.KernelIdeal.Whole.w1 m c)
      (Cert.KernelIdeal.Whole.b1 m c) (Cert.KernelIdeal.Whole.w2 m c) (Cert.KernelIdeal.Whole.b2 m c)
      (Cert.KernelIdeal.Whole.w3 m c) (Cert.KernelIdeal.Whole.b3 m c)) (Cert.KernelIdeal.Whole.grp m c), ?_, ?_⟩
  · exact (θ_run Cert.KernelIdeal.defs _ _).mono
      (fun r h c => ⟨(h c).1.trans (Cert.KernelIdeal.Whole.result0 m ρ c),
        (h c).2.1.trans (Cert.KernelIdeal.Whole.result1 m ρ c), (h c).2.2⟩)
      (Cert.KernelIdeal.Whole.run_results (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9⟩ := hagree c
    refine ⟨(h c).1.trans ((Cert.Net.ref_nodeOut m' c).trans ?_), (h c).2.1.trans ((Cert.Net.ref_readout m' c).trans ?_), (h c).2.2⟩
    · show Cert.Net.nodeOut (F := Ideal) _ _ _ _ _ _ _ _ _ = _
      rw [e0, e1, e3, e4, e5, e6, e7, e8, e9]
    · show Cert.Net.readout (F := Ideal) (Cert.Net.nodeOut (F := Ideal) _ _ _ _ _ _ _ _ _) _ = _
      rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
